-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S1x10000x128 : Shape := ⟨3, ![1, 10000, 128]⟩
abbrev S4x128x128 : Shape := ⟨3, ![4, 128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S1x10000x128 : S_.BroadcastsInDim S1x10000x128 (![] : Fin 0 → Fin S1x10000x128.rank)
  reducesTo_S1x10000x128_S_d0_1_2 : S1x10000x128.ReducesTo [0, 1, 2] S_
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x10000 .f32) (main_arg1 : FVec F S1x10000x128 .f32) (main_arg2 : FVec F S4x128x128 .f32) (main_arg3 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S1x10000x128 .f32 := Host.absf main_arg1
  let main_cst_0 : FVec F S_ .f32 := constant S_ .f32 0x7F800000#32
  let main_v5 : FVec F S1x10000x128 .f32 := broadcastInDim S1x10000x128 ![] bcast_S_S1x10000x128 main_cst_0
  let main_v6 : IVec S1x10000x128 1 := cmpf .olt main_v4 main_v5
  let main_c_1 : IVec S_ 1 := constantI S_ 1 1#1
  let main_v7 : IVec S_ 1 := (fun x v => Host.reduce IntOp.andi x v reducesTo_S1x10000x128_S_d0_1_2 h_S_) main_v6 main_c_1
  let main_v8 : IVec S_ 1 := andi main_v3 main_v7
  let main_v9 : FVec F S4x128x128 .f32 := Host.absf main_arg2
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x10000 : Shape := ⟨2, ![10000, 10000]⟩
abbrev S1x10000x128 : Shape := ⟨3, ![1, 10000, 128]⟩
abbrev S4x128x128 : Shape := ⟨3, ![4, 128, 128]⟩
abbrev S128 : Shape := ⟨1, ![128]⟩
abbrev S10000x128x1 : Shape := ⟨3, ![10000, 128, 1]⟩
abbrev S10000x128 : Shape := ⟨2, ![10000, 128]⟩
abbrev S128x4x128 : Shape := ⟨3, ![128, 4, 128]⟩
abbrev S512x128 : Shape := ⟨2, ![512, 128]⟩
abbrev S1x128 : Shape := ⟨2, ![1, 128]⟩
abbrev S400x10000 : Shape := ⟨2, ![400, 10000]⟩
abbrev S400x128 : Shape := ⟨2, ![400, 128]⟩
abbrev S1000x10000 : Shape := ⟨2, ![1000, 10000]⟩
abbrev S1000x128 : Shape := ⟨2, ![1000, 128]⟩
abbrev S128x128 : Shape := ⟨2, ![128, 128]⟩

abbrev nBuf : Space → Nat
  | .hbm => 16
  | .vmem => 24
  | .smem => 0
  | _ => 0

abbrev bufTy : (tb : Table) → Fin (tcTables nBuf tb) → BufTy
  | .hbm, ⟨0, _⟩ => ⟨S10000x10000, .f32⟩
  | .hbm, ⟨1, _⟩ => ⟨S1x10000x128, .f32⟩
  | .hbm, ⟨2, _⟩ => ⟨S4x128x128, .f32⟩
  | .hbm, ⟨3, _⟩ => ⟨S128, .f32⟩
  | .hbm, ⟨4, _⟩ => ⟨S10000x128x1, .f32⟩
  | .hbm, ⟨5, _⟩ => ⟨S10000x128, .f32⟩
  | .hbm, ⟨6, _⟩ => ⟨S128x4x128, .f32⟩
  | .hbm, ⟨7, _⟩ => ⟨S4x128x128, .f32⟩
  | .hbm, ⟨8, _⟩ => ⟨S512x128, .f32⟩
  | .hbm, ⟨9, _⟩ => ⟨S1x128, .f32⟩
  | .hbm, ⟨10, _⟩ => ⟨S10000x10000, .bf16⟩
  | .hbm, ⟨11, _⟩ => ⟨S10000x128, .bf16⟩
  | .hbm, ⟨12, _⟩ => ⟨S10000x128, .bf16⟩
  | .hbm, ⟨13, _⟩ => ⟨S10000x128, .bf16⟩
  | .hbm, ⟨14, _⟩ => ⟨S10000x128, .f32⟩
  | .hbm, ⟨15, _⟩ => ⟨S1x10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x10000, .bf16⟩
  | .local _ .vmem, ⟨4, _⟩ => ⟨S400x10000, .bf16⟩
  | .local _ .vmem, ⟨5, _⟩ => ⟨S400x128, .bf16⟩
  | .local _ .vmem, ⟨6, _⟩ => ⟨S400x128, .bf16⟩
  | .local _ .vmem, ⟨7, _⟩ => ⟨S400x128, .bf16⟩
  | .local _ .vmem, ⟨8, _⟩ => ⟨S400x128, .bf16⟩
  | .local _ .vmem, ⟨9, _⟩ => ⟨S1000x10000, .bf16⟩
  | .local _ .vmem, ⟨10, _⟩ => ⟨S1000x10000, .bf16⟩
  | .local _ .vmem, ⟨11, _⟩ => ⟨S10000x128, .bf16⟩
  | .local _ .vmem, ⟨12, _⟩ => ⟨S10000x128, .bf16⟩
  | .local _ .vmem, ⟨13, _⟩ => ⟨S1000x128, .bf16⟩
  | .local _ .vmem, ⟨14, _⟩ => ⟨S1000x128, .bf16⟩
  | .local _ .vmem, ⟨15, _⟩ => ⟨S1000x10000, .bf16⟩
  | .local _ .vmem, ⟨16, _⟩ => ⟨S1000x10000, .bf16⟩
  | .local _ .vmem, ⟨17, _⟩ => ⟨S10000x128, .bf16⟩
  | .local _ .vmem, ⟨18, _⟩ => ⟨S10000x128, .bf16⟩
  | .local _ .vmem, ⟨19, _⟩ => ⟨S10000x128, .bf16⟩
  | .local _ .vmem, ⟨20, _⟩ => ⟨S512x128, .f32⟩
  | .local _ .vmem, ⟨21, _⟩ => ⟨S1x128, .f32⟩
  | .local _ .vmem, ⟨22, _⟩ => ⟨S1000x128, .f32⟩
  | .local _ .vmem, ⟨23, _⟩ => ⟨S1000x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v9 : BitVec 32 := Scalar.muli arg0 c400_i32
  let v10 : Index := Scalar.indexCast v9
  let c0_9 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def k1_off1 (i : grid1.Coords) : Fin 2 → Nat :=
  let arg0 : BitVec 32 := BitVec.ofNat 32 (i 0).val
  let c1000_i32 : BitVec 32 := 1000#32
  let v5 : BitVec 32 := Scalar.muli arg0 c1000_i32
  let v6 : Index := Scalar.indexCast v5
  let c0_3 : Index := 0#32
  ![v6.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def k2_off1 (i : grid2.Coords) : Fin 2 → Nat :=
  let arg0 : BitVec 32 := BitVec.ofNat 32 (i 0).val
  let c1000_i32 : BitVec 32 := 1000#32
  let v5 : BitVec 32 := Scalar.muli arg0 c1000_i32
  let v6 : Index := Scalar.indexCast v5
  let c0_3 : Index := 0#32
  ![v6.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10000x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10000x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S1x10000x128_S10000x128x1_1_2_0 : S1x10000x128.Transposes [1, 2, 0] S10000x128x1
  shapeCasts_S10000x128x1_S10000x128 : S10000x128x1.ShapeCasts S10000x128
  shapeCasts_S4x128x128_S128x4x128 : S4x128x128.ShapeCasts S128x4x128
  transposes_S128x4x128_S4x128x128_1_0_2 : S128x4x128.Transposes [1, 0, 2] S4x128x128
  shapeCasts_S4x128x128_S512x128 : S4x128x128.ShapeCasts S512x128
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  packedbf16_S400x10000_S400x10000_0_0 : (Rect.unit (s := S400x10000) ![0, 0] S400x10000.size inb_S400x10000_S400x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S400x128_S400x128 : S400x128.ShapeCasts S400x128
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  h_S1000x128 : 0 < S1000x128.numel
  shapeCasts_S1000x128_S1000x128 : S1000x128.ShapeCasts S1000x128
  inb_S1000x128_S1000x128_0_0 : ∀ a, (![0, 0] : Fin 2 → Nat) a + S1000x128.size a ≤ S1000x128.size a
  packedbf16_S1000x128_S1000x128_0_0 : (Rect.unit (s := S1000x128) ![0, 0] S1000x128.size inb_S1000x128_S1000x128_0_0).PackedRows (EltTy.packing .bf16)
  inb_S512x128_S128x128_0_0 : ∀ a, (![0, 0] : Fin 2 → Nat) a + S128x128.size a ≤ S512x128.size a
  h_S128x128 : 0 < S128x128.numel
  shapeCasts_S128x128_S128x128 : S128x128.ShapeCasts S128x128
  inb_S512x128_S128x128_128_0 : ∀ a, (![128, 0] : Fin 2 → Nat) a + S128x128.size a ≤ S512x128.size a
  inb_S512x128_S128x128_256_0 : ∀ a, (![256, 0] : Fin 2 → Nat) a + S128x128.size a ≤ S512x128.size a
  inb_S512x128_S128x128_384_0 : ∀ a, (![384, 0] : Fin 2 → Nat) a + S128x128.size a ≤ S512x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  shapeCasts_S10000x128_S1x10000x128 : S10000x128.ShapeCasts S1x10000x128
  dot_S400x10000_S10000x128_S400x128_1_0_0_1_n_n_wf : DotDims.WF S400x10000 S10000x128 S400x128 [1] [0] [0] [1] [] []
  dot_S1000x10000_S10000x128_S1000x128_1_0_0_1_n_n_wf : DotDims.WF S1000x10000 S10000x128 S1000x128 [1] [0] [0] [1] [] []
  dot_S1000x128_S128x128_S1000x128_1_0_0_1_n_n_wf : DotDims.WF S1000x128 S128x128 S1000x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .bf16 = 32 ∨ (Rect.block (s := S10000x10000) S400x10000.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .bf16 = 32 ∨ (Rect.block (s := S10000x128) S400x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .bf16 = 32 ∨ (Rect.block (s := S10000x128) S400x128.size (cc0_transform_4 i) (hinb0_4 i)).WholeWords (EltTy.packing .bf16)
  hrank1 : 0 < grid1.rank
  k1_off1_inb : ∀ i : grid1.Coords, ∀ a, (k1_off1 i) a + S1000x128.size a ≤ S10000x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .bf16 = 32 ∨ (Rect.block (s := S10000x128) S10000x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S10000x128.size a
  hwx1_3 : ∀ i : grid1.Coords, EltTy.bits .bf16 = 32 ∨ (Rect.block (s := S10000x128) S1000x128.size (cc1_transform_3 i) (hinb1_3 i)).WholeWords (EltTy.packing .bf16)
  hrank2 : 0 < grid2.rank
  k2_off1_inb : ∀ i : grid2.Coords, ∀ a, (k2_off1 i) a + S1000x128.size a ≤ S10000x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S10000x128.size a
  hwx2_2 : ∀ i : grid2.Coords, EltTy.bits .bf16 = 32 ∨ (Rect.block (s := S10000x128) S10000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S10000x128.size a
  hwx2_3 : ∀ i : grid2.Coords, EltTy.bits .bf16 = 32 ∨ (Rect.block (s := S10000x128) S10000x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S512x128.size a
  hwx2_4 : ∀ i : grid2.Coords, EltTy.bits .f32 = 32 ∨ (Rect.block (s := S512x128) S512x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x128.size a ≤ S10000x128.size a
  hwx2_6 : ∀ i : grid2.Coords, EltTy.bits .f32 = 32 ∨ (Rect.block (s := S10000x128) S1000x128.size (cc2_transform_6 i) (hinb2_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S400x10000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S400x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_2) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6_0) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6_1) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6_0) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6_2) S10000x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6_1) S10000x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S512x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S1000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S10000x10000 : Shape := ⟨2, ![10000, 10000]⟩
abbrev S1x10000x128 : Shape := ⟨3, ![1, 10000, 128]⟩
abbrev S4x128x128 : Shape := ⟨3, ![4, 128, 128]⟩
abbrev S128 : Shape := ⟨1, ![128]⟩
abbrev S10000x128x1 : Shape := ⟨3, ![10000, 128, 1]⟩
abbrev S10000x128 : Shape := ⟨2, ![10000, 128]⟩
abbrev S_ : Shape := ⟨0, ![]⟩
abbrev S4x10000x128 : Shape := ⟨3, ![4, 10000, 128]⟩
abbrev S4x10000x128x1 : Shape := ⟨4, ![4, 10000, 128, 1]⟩
abbrev S1x10000x128x4 : Shape := ⟨4, ![1, 10000, 128, 4]⟩
abbrev S10000x512 : Shape := ⟨2, ![10000, 512]⟩
abbrev S512x128 : Shape := ⟨2, ![512, 128]⟩
abbrev S1x1x128 : Shape := ⟨3, ![1, 1, 128]⟩

abbrev nBuf : Space → Nat
  | .hbm => 31
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S1x10000x128, .f32⟩
  | .hbm, ⟨2, _⟩ => ⟨S4x128x128, .f32⟩
  | .hbm, ⟨3, _⟩ => ⟨S128, .f32⟩
  | .hbm, ⟨4, _⟩ => ⟨S10000x128x1, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S1x10000x128, .f32⟩
  | .hbm, ⟨18, _⟩ => ⟨S1x10000x128, .f32⟩
  | .hbm, ⟨19, _⟩ => ⟨S1x10000x128, .f32⟩
  | .hbm, ⟨20, _⟩ => ⟨S1x10000x128, .f32⟩
  | .hbm, ⟨21, _⟩ => ⟨S4x10000x128, .f32⟩
  | .hbm, ⟨22, _⟩ => ⟨S4x10000x128x1, .f32⟩
  | .hbm, ⟨23, _⟩ => ⟨S1x10000x128x4, .f32⟩
  | .hbm, ⟨24, _⟩ => ⟨S10000x512, .f32⟩
  | .hbm, ⟨25, _⟩ => ⟨S512x128, .f32⟩
  | .hbm, ⟨26, _⟩ => ⟨S10000x128, .f32⟩
  | .hbm, ⟨27, _⟩ => ⟨S1x10000x128, .f32⟩
  | .hbm, ⟨28, _⟩ => ⟨S1x1x128, .f32⟩
  | .hbm, ⟨29, _⟩ => ⟨S1x10000x128, .f32⟩
  | .hbm, ⟨30, _⟩ => ⟨S1x10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]

class Facts₀ : Prop where
  transposes_S1x10000x128_S10000x128x1_1_2_0 : S1x10000x128.Transposes [1, 2, 0] S10000x128x1
  shapeCasts_S10000x128x1_S10000x128 : S10000x128x1.ShapeCasts S10000x128
  bcast_S_S10000x128 : S_.BroadcastsInDim S10000x128 (![] : Fin 0 → Fin S10000x128.rank)
  bcast_S10000x128_S1x10000x128_1_2 : S10000x128.BroadcastsInDim S1x10000x128 (![1, 2] : Fin 2 → Fin S1x10000x128.rank)
  concatenates_S1x10000x128_S1x10000x128_S1x10000x128_S1x10000x128_S4x10000x128_d0 : Shape.Concatenates [S1x10000x128, S1x10000x128, S1x10000x128, S1x10000x128] S4x10000x128 0
  shapeCasts_S4x10000x128_S4x10000x128x1 : S4x10000x128.ShapeCasts S4x10000x128x1
  transposes_S4x10000x128x1_S1x10000x128x4_3_1_2_0 : S4x10000x128x1.Transposes [3, 1, 2, 0] S1x10000x128x4
  shapeCasts_S1x10000x128x4_S10000x512 : S1x10000x128x4.ShapeCasts S10000x512
  shapeCasts_S4x128x128_S512x128 : S4x128x128.ShapeCasts S512x128
  shapeCasts_S10000x128_S1x10000x128 : S10000x128.ShapeCasts S1x10000x128
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  dot_S10000x10000_S10000x128_S10000x128_1_0_0_1_n_n_wf : DotDims.WF S10000x10000 S10000x128 S10000x128 [1] [0] [0] [1] [] []
  dot_S10000x512_S512x128_S10000x128_1_0_0_1_n_n_wf : DotDims.WF S10000x512 S512x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf

class Facts : Prop extends Facts₀ where

variable [Facts]
-- ==== Proof.RunHeld.lean ====
/-
  The idealized kernel program's run, read whole: every weakly fair execution of the program terminates without a
  fault, and in the final memory every buffer that outlives the three passes holds what the last boundary of the
  program assigns to it: the launch memory pushed through the host operations before the first pass, then through
  each pass (its arrays at what its write-backs leave, everything else untouched), then through the closing reshape.
  The value of the result buffer is read off this in the modules that follow.
-/
import proofs.«146052_g1580547967739_cont_week2b_856_7_alg».proof.Proof.Gen.KernelIdeal.Frame

noncomputable section

namespace Cert.KernelIdeal.RunHeld

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every final state holds, at each buffer that is not scoped to a pass, the contents of the last boundary. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The result buffer and the four arguments in the final memory. -/
theorem run_result : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v9 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_held m ρ)

end Cert.KernelIdeal.RunHeld

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.Pass1Body.lean ====
/-
  The first pass, one grid point: what its body leaves in each of its three output blocks.

  On a block of 400 rows of the Laplacian L and the whole feature matrix x the body stores three things: the block of
  L itself (narrowed to half precision, which changes nothing over the extended reals), the product of the block of L
  with x, and rows 400 i .. 400 i + 399 of x. Each is one store covering its whole block, so what the block holds
  afterwards is the stored value; read at an entry, the product is the plain sum over the 10000 nodes.
-/
import proofs.«146052_g1580547967739_cont_week2b_856_7_alg».proof.Proof.Gen.KernelIdeal.Frame
import proofs.«146052_g1580547967739_cont_week2b_856_7_alg».proof.Proof.LibMatmul
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Pass1

open Cert.KernelIdeal Cert.KernelIdeal.Gen

theorem hz : (![0, 0] : Fin 2 → Nat) = fun _ => 0 := funext fun a => by fin_cases a <;> rfl

section Pieces
variable {F : FTy → Type} [FloatOps F]

/-- The first output block holds the narrowed block of L. -/
theorem piece_lb (c : Dev nD) (i : grid0.Coords) (a1 : Memref sig .tc .vmem S400x10000 .f32) (h1 : a1.IsWhole)
    (a2 : Memref sig .tc .vmem S10000x128 .f32) (h2 : a2.IsWhole) (a3 : Memref sig .tc .vmem S400x10000 .bf16) (h3 : a3.IsWhole)
    (a4 : Memref sig .tc .vmem S400x128 .bf16) (h4 : a4.IsWhole) (a5 : Memref sig .tc .vmem S400x128 .bf16) (h5 : a5.IsWhole)
    (x0 : Vec F S400x10000 .f32) (x1 : Vec F S10000x128 .f32) :
    out0_A_2 c i a1 h1 a2 h2 a3 h3 a4 h4 a5 h5 x0 x1 = k0_pay1 x0 := by
  unfold out0_A_2
  rw [View.read_writes_eq_canon _ _ _ (cover0_A_2 c i a1 h1 a2 h2 a3 h3 a4 h4 a5 h5 x0 x1)]
  unfold kernelRun0_A
  dsimp only
  rw [View.canon_unit_zero hz]
  simp only [View.readAt_eq_ld, h1.read_unread, View.ld_unit_zero (S := S400x10000) hz]

/-- The second output block holds the narrowed rows of x that start at the point's row offset. -/
theorem piece_rows (c : Dev nD) (i : grid0.Coords) (a1 : Memref sig .tc .vmem S400x10000 .f32) (h1 : a1.IsWhole)
    (a2 : Memref sig .tc .vmem S10000x128 .f32) (h2 : a2.IsWhole) (a3 : Memref sig .tc .vmem S400x10000 .bf16) (h3 : a3.IsWhole)
    (a4 : Memref sig .tc .vmem S400x128 .bf16) (h4 : a4.IsWhole) (a5 : Memref sig .tc .vmem S400x128 .bf16) (h5 : a5.IsWhole)
    (x0 : Vec F S400x10000 .f32) (x1 : Vec F S10000x128 .f32) :
    out0_A_3 c i a1 h1 a2 h2 a3 h3 a4 h4 a5 h5 x0 x1
      = k0_pay3 (View.ld x1 (Rect.unit (s := S10000x128) (k0_off1 i) S400x128.size (k0_off1_inb i))) := by
  unfold out0_A_3
  rw [View.read_writes_eq_canon _ _ _ (cover0_A_3 c i a1 h1 a2 h2 a3 h3 a4 h4 a5 h5 x0 x1)]
  unfold kernelRun0_A
  dsimp only
  rw [View.canon_unit_zero hz]
  simp only [View.readAt_eq_ld, h2.read_unread]

/-- The third output block holds the narrowed product of the block of L with x. -/
theorem piece_prod (c : Dev nD) (i : grid0.Coords) (a1 : Memref sig .tc .vmem S400x10000 .f32) (h1 : a1.IsWhole)
    (a2 : Memref sig .tc .vmem S10000x128 .f32) (h2 : a2.IsWhole) (a3 : Memref sig .tc .vmem S400x10000 .bf16) (h3 : a3.IsWhole)
    (a4 : Memref sig .tc .vmem S400x128 .bf16) (h4 : a4.IsWhole) (a5 : Memref sig .tc .vmem S400x128 .bf16) (h5 : a5.IsWhole)
    (x0 : Vec F S400x10000 .f32) (x1 : Vec F S10000x128 .f32) :
    out0_A_4 c i a1 h1 a2 h2 a3 h3 a4 h4 a5 h5 x0 x1 = k0_pay2 x0 x1 := by
  unfold out0_A_4
  rw [View.read_writes_eq_canon _ _ _ (cover0_A_4 c i a1 h1 a2 h2 a3 h3 a4 h4 a5 h5 x0 x1)]
  unfold kernelRun0_A
  dsimp only
  rw [View.canon_unit_zero hz]
  simp only [View.readAt_eq_ld, h1.read_unread, h2.read_unread, View.ld_unit_zero (S := S400x10000) hz,
    View.ld_unit_zero (S := S10000x128) hz]

end Pieces

/-! ## The stored values at an entry, over the extended reals -/

/-- Narrowing is the identity. -/
theorem pay1_apply (x : Vec Ideal S400x10000 .f32) (j : S400x10000.Idx) : k0_pay1 (F := Ideal) x j = x j := rfl

/-- Narrowing the loaded rows is the identity. -/
theorem pay3_apply (v : Vec Ideal S400x128 .f32) (j : S400x128.Idx) : k0_pay3 (F := Ideal) v j = v j := by
  unfold k0_pay3
  rw [shapeCast_self]
  rfl

/-- The product of a 400-row block with the whole feature matrix, at an entry: the sum over the nodes. -/
theorem dot400 (l : FVec Ideal S400x10000 .f32) (r : FVec Ideal S10000x128 .f32) (p : Fin 400) (q : Fin 128) :
    FloatOps.matmul dot_S400x10000_S10000x128_S400x128_1_0_0_1_n_n none l r (constant (F := Ideal) S400x128 .f32 0x00000000#32) (ix2 p q)
      = ∑ k : Fin 10000, l (ix2 p k) * r (ix2 k q) :=
  Cert.LibMatmul.matmul_zero_ix2 dot_S400x10000_S10000x128_S400x128_1_0_0_1_n_n rfl rfl
    (fun i q => by
      unfold DotDims.lhsIdx
      rw [dif_neg (show ¬(0 : Fin S400x10000.rank) ∈ dot_S400x10000_S10000x128_S400x128_1_0_0_1_n_n.lhsBatch by decide),
        dif_pos (show (0 : Fin S400x10000.rank) ∈ dot_S400x10000_S10000x128_S400x128_1_0_0_1_n_n.lhsNonContracting by decide)]
      rfl)
    (fun i q => dot_S400x10000_S10000x128_S400x128_1_0_0_1_n_n.lhsIdx_val_of_single rfl i q)
    (fun i q => dot_S400x10000_S10000x128_S400x128_1_0_0_1_n_n.rhsIdx_val_of_single rfl i q)
    (fun i q => by
      unfold DotDims.rhsIdx
      rw [dif_neg (show ¬(1 : Fin S10000x128.rank) ∈ dot_S400x10000_S10000x128_S400x128_1_0_0_1_n_n.rhsBatch by decide),
        dif_pos (show (1 : Fin S10000x128.rank) ∈ dot_S400x10000_S10000x128_S400x128_1_0_0_1_n_n.rhsNonContracting by decide)]
      rfl)
    none l r p q

theorem pay2_apply (l : Vec Ideal S400x10000 .f32) (r : Vec Ideal S10000x128 .f32) (p : Fin 400) (q : Fin 128) :
    k0_pay2 (F := Ideal) l r (ix2 p q) = ∑ k : Fin 10000, l (ix2 p k) * r (ix2 k q) := by
  unfold k0_pay2
  rw [shapeCast_self]
  exact dot400 l r p q

end Cert.KernelIdeal.Pass1

end
-- ==== Proof.Spec.lean ====
/-
  The Chebyshev graph convolution of order four, as functions of indices over the extended reals.

  With L the Laplacian (10000 by 10000) and x0 the node features (10000 by 128) the three-term recurrence gives
    t1 = L x0,   t2 = 2 (L t1) - x0,   t3 = 2 (L t2) - t1,
  and the result at node r and output feature o is
    sum over k < 4 and f < 128 of  t_k (r, f) * W (4 f + k, o),   plus the bias at o,
  where W is the weight read as one matrix of 512 rows (row 128 a + b is entry (a, b) of the 4 by 128 by 128 array).
  Here the sum is written as four sums of 128 terms added left to right: `part` is one of them, taken against rows
  128 k .. 128 k + 127 of the permuted weight whose row 128 k + f is row 4 f + k of W.
-/
import Idealize.ShloMosaic.PureOps.Ideal.Laws
import Idealize.ShloMosaic.Lib.ValueIdx

noncomputable section

namespace Cert.Cheb

open Idealize.ShloMosaic Idealize.ShloMosaic.ValueIdx

/-- The Laplacian, by (row, column). -/
abbrev LapMat : Type := (⟨2, ![10000, 10000]⟩ : Shape).Idx → EReal
/-- A feature matrix, by (node, feature). -/
abbrev Feat : Type := (⟨2, ![10000, 128]⟩ : Shape).Idx → EReal
/-- A weight matrix of 512 rows, by (row, output feature). -/
abbrev Wt : Type := (⟨2, ![512, 128]⟩ : Shape).Idx → EReal
/-- The bias as a one-row matrix. -/
abbrev BiasRow : Type := (⟨2, ![1, 128]⟩ : Shape).Idx → EReal
/-- The node features as given: (batch, node, feature), one batch. -/
abbrev Inp : Type := (⟨3, ![1, 10000, 128]⟩ : Shape).Idx → EReal
/-- The weight as given: (order, input feature, output feature). -/
abbrev Wt3 : Type := (⟨3, ![4, 128, 128]⟩ : Shape).Idx → EReal
/-- The bias as given. -/
abbrev Bias1 : Type := (⟨1, ![128]⟩ : Shape).Idx → EReal
/-- The result: (batch, node, output feature). -/
abbrev Out3 : Type := (⟨3, ![1, 10000, 128]⟩ : Shape).Idx → EReal

/-- The product L x: entry (r, f) is the sum over nodes k of L (r, k) x (k, f). -/
def lap (L : LapMat) (x : Feat) : Feat :=
  fun i => ∑ k : Fin 10000, L (ix2 (n0 := 10000) (n1 := 10000) (i 0) k) * x (ix2 (n0 := 10000) (n1 := 128) k (i 1))

theorem lap_apply (L : LapMat) (x : Feat) (p : Fin 10000) (q : Fin 128) :
    lap L x (ix2 p q) = ∑ k : Fin 10000, L (ix2 p k) * x (ix2 k q) := rfl

/-- The number two, as the single-precision word both programs carry. -/
def two : EReal := Ideal.ofBits .f32 0x40000000#32

/-- One step of the recurrence: 2 (L x) - y. -/
def next (L : LapMat) (x y : Feat) : Feat := fun i => two * lap L x i - y i

theorem next_apply (L : LapMat) (x y : Feat) (p : Fin 10000) (q : Fin 128) :
    next L x y (ix2 p q) = two * lap L x (ix2 p q) - y (ix2 p q) := rfl

/-- t1 = L x0. -/
def t1 (L : LapMat) (x0 : Feat) : Feat := lap L x0
/-- t2 = 2 (L t1) - x0. -/
def t2 (L : LapMat) (x0 : Feat) : Feat := next L (t1 L x0) x0
/-- t3 = 2 (L t2) - t1. -/
def t3 (L : LapMat) (x0 : Feat) : Feat := next L (t2 L x0) (t1 L x0)

/-- Row 128 k + f of a 512-row matrix. -/
def wrow (k : Fin 4) (f : Fin 128) : Fin 512 := ⟨128 * k.val + f.val, by have := k.isLt; have := f.isLt; omega⟩

/-- x times rows 128 k .. 128 k + 127 of w: entry (r, o) is the sum over f of x (r, f) w (128 k + f, o). -/
def part (x : Feat) (w : Wt) (k : Fin 4) : Feat :=
  fun i => ∑ f : Fin 128, x (ix2 (n0 := 10000) (n1 := 128) (i 0) f) * w (ix2 (n0 := 512) (n1 := 128) (wrow k f) (i 1))

theorem part_apply (x : Feat) (w : Wt) (k : Fin 4) (p : Fin 10000) (q : Fin 128) :
    part x w k (ix2 p q) = ∑ f : Fin 128, x (ix2 p f) * w (ix2 (wrow k f) q) := rfl

/-- The four products added left to right, then the bias row. -/
def combine (x0 x1 x2 x3 : Feat) (w : Wt) (b : BiasRow) : Feat :=
  fun i => (((part x0 w 0 i + part x1 w 1 i) + part x2 w 2 i) + part x3 w 3 i)
    + b (ix2 (n0 := 1) (n1 := 128) (0 : Fin 1) (i 1))

theorem combine_apply (x0 x1 x2 x3 : Feat) (w : Wt) (b : BiasRow) (p : Fin 10000) (q : Fin 128) :
    combine x0 x1 x2 x3 w b (ix2 p q)
      = (((part x0 w 0 (ix2 p q) + part x1 w 1 (ix2 p q)) + part x2 w 2 (ix2 p q)) + part x3 w 3 (ix2 p q))
        + b (ix2 (0 : Fin 1) q) := rfl

/-- The node features of the one batch as a matrix. -/
def feat0 (inp : Inp) : Feat :=
  fun i => inp (ix3 (n0 := 1) (n1 := 10000) (n2 := 128) (0 : Fin 1) (i 0) (i 1))

theorem feat0_apply (inp : Inp) (p : Fin 10000) (q : Fin 128) : feat0 inp (ix2 p q) = inp (ix3 (0 : Fin 1) p q) := rfl

/-- The weight read as one matrix of 512 rows: row j is entry (j / 128, j % 128). -/
def wflat (wt : Wt3) : Wt :=
  fun i => wt (ix3 (n0 := 4) (n1 := 128) (n2 := 128)
    ⟨(i 0).val / 128, by have h : (i 0).val < 512 := (i 0).isLt; omega⟩
    ⟨(i 0).val % 128, Nat.mod_lt _ (by decide)⟩ (i 1))

/-- The permuted weight: its row j = 128 k + f is row 4 f + k of the flat weight. -/
def wperm (wt : Wt3) : Wt :=
  fun i => wflat wt (ix2 (n0 := 512) (n1 := 128)
    ⟨4 * ((i 0).val % 128) + (i 0).val / 128, by have h : (i 0).val < 512 := (i 0).isLt; omega⟩ (i 1))

/-- The bias as a one-row matrix. -/
def biasRow (b : Bias1) : BiasRow := fun i => b (ix1 (n := 128) (i 1))

/-- The convolution's result for the one batch. -/
def result (L : LapMat) (inp : Inp) (wt : Wt3) (b : Bias1) : Out3 :=
  fun i => combine (feat0 inp) (t1 L (feat0 inp)) (t2 L (feat0 inp)) (t3 L (feat0 inp)) (wperm wt) (biasRow b)
    (ix2 (n0 := 10000) (n1 := 128) (i 1) (i 2))

theorem result_apply (L : LapMat) (inp : Inp) (wt : Wt3) (b : Bias1) (p : Fin 10000) (q : Fin 128) :
    result L inp wt b (ix3 (0 : Fin 1) p q)
      = combine (feat0 inp) (t1 L (feat0 inp)) (t2 L (feat0 inp)) (t3 L (feat0 inp)) (wperm wt) (biasRow b) (ix2 p q) := rfl

end Cert.Cheb

end
-- ==== Proof.Pass1.lean ====
/-
  The first pass, whole: what its three output arrays hold when it has run, for any contents V of the buffers at
  its entry.

  Its grid has 25 points; point t works on rows 400 t .. 400 t + 399. The half-precision copy of the Laplacian ends
  equal to the Laplacian, the copy of the features equal to the features, and the third array is the product L x:
  each block written back is the corresponding block of these whole-array functions, and the 25 blocks of 400 rows
  tile the 10000 rows (row r lies in the block of point r / 400).
-/
import proofs.«146052_g1580547967739_cont_week2b_856_7_alg».proof.Proof.Pass1Body
import proofs.«146052_g1580547967739_cont_week2b_856_7_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Pass1

open Cert.KernelIdeal Cert.KernelIdeal.Gen Cert.Cheb

variable (V : (c : Dev nD) → (b : Ref sig .tc) → Buf (Elt Ideal) ((c : Thread nD τ).loc b))

/-- The block index of every window at every point, and the row offset the body computes: decided over the grid. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ k0_off1 (grid0.coords t) (0 : Fin 2) = 400 * t.val ∧ k0_off1 (grid0.coords t) (1 : Fin 2) = 0 :=
  (by decide +kernel : ∀ t : Fin grid0.N, _)

theorem lt_N (t : Fin cfg0.N) : t.val < 25 := lt_of_lt_of_eq t.isLt N_0

/-! ## The product L x -/

/-- What point t writes back to the third output array is block t of L x. -/
theorem flushed_prod (c : Dev nD) (t : Fin cfg0.N) :
    (dat0 (F := Ideal) V c).flushed 4 t
      = ((cfg0.win 4).blk t).view.read (Elt Ideal) (lap (V c main_arg0) (V c main_v1)) := by
  show (cfg0.win 4).cut (grid0.coords t) ((dat0 V c).after 4 t) = _
  rw [after0_4]
  unfold outsAt0
  dsimp only
  rw [piece_prod]
  obtain ⟨e00, e01, e10, e11, e20, e21, e30, e31, e40, e41, eo0, eo1⟩ := idx_facts t
  have ht := lt_N t
  funext j
  obtain ⟨p, q, rfl⟩ : ∃ (p : Fin 400) (q : Fin 128), j = ix2 p q := ⟨j 0, j 1, eq_ix2 j⟩
  show k0_pay2 (F := Ideal) (iblk0 V c 0 t) (iblk0 V c 1 t) (ix2 p q)
    = lap (V c main_arg0) (V c main_v1) (((cfg0.win 4).blk t).view.emb (ix2 p q))
  refine (pay2_apply _ _ p q).trans ?_
  have hemb : ((cfg0.win 4).blk t).view.emb (ix2 p q)
      = (ix2 (⟨400 * t.val + p.val, by have := p.isLt; omega⟩ : Fin 10000) q : S10000x128.Idx) := by
    funext a; apply Fin.ext
    match a with
    | ⟨0, _⟩ => show win0_4.index t (0 : Fin 2) * 400 + 1 * p.val = 400 * t.val + p.val; rw [e40]; omega
    | ⟨1, _⟩ => show win0_4.index t (1 : Fin 2) * 128 + 1 * q.val = q.val; rw [e41]; omega
  rw [hemb, lap_apply]
  refine Finset.sum_congr rfl fun k _ => ?_
  have hl : iblk0 V c 0 t (ix2 p k) = V c main_arg0 (ix2 (⟨400 * t.val + p.val, by have := p.isLt; omega⟩ : Fin 10000) k) := by
    show V c main_arg0 (((cfg0.win 0).blk t).view.emb (ix2 p k)) = _
    refine congrArg _ (funext fun a => Fin.ext ?_)
    match a with
    | ⟨0, _⟩ => show win0_0.index t (0 : Fin 2) * 400 + 1 * p.val = 400 * t.val + p.val; rw [e00]; omega
    | ⟨1, _⟩ => show win0_0.index t (1 : Fin 2) * 10000 + 1 * k.val = k.val; rw [e01]; omega
  have hr : iblk0 V c 1 t (ix2 k q) = V c main_v1 (ix2 k q) := by
    show V c main_v1 (((cfg0.win 1).blk t).view.emb (ix2 k q)) = _
    refine congrArg _ (funext fun a => Fin.ext ?_)
    match a with
    | ⟨0, _⟩ => show win0_1.index t (0 : Fin 2) * 10000 + 1 * k.val = k.val; rw [e10]; omega
    | ⟨1, _⟩ => show win0_1.index t (1 : Fin 2) * 128 + 1 * q.val = q.val; rw [e11]; omega
  rw [hl, hr]

/-- An index of the product array is in point t's block iff each coordinate is in the block's range on its axis. -/
theorem mem_blk_prod (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v6_2).slice (win0_4.rect t)).set ↔ _
  rw [View.set_slice_whole, Rect.mem_set_unit]
  exact Iff.rfl

/-- The third output array ends holding L x. -/
theorem final_prod (c : Dev nD) :
    (dat0 (F := Ideal) V c).arrAt 4 cfg0.N = lap (V c main_arg0) (V c main_v1) :=
  (dat0 V c).arrAt_eq_of_cover 4 _ (fun t _ => flushed_prod V c t) fun i => by
    have hi0 : (i 0).val < 10000 := (i 0).isLt
    have hi1 : (i 1).val < 128 := (i 1).isLt
    have hq : (i 0).val / 400 < cfg0.N := lt_of_lt_of_eq (show (i 0).val / 400 < 25 by omega) N_0.symm
    obtain ⟨e00, e01, e10, e11, e20, e21, e30, e31, e40, e41, eo0, eo1⟩ := idx_facts ⟨(i 0).val / 400, hq⟩
    refine ⟨⟨(i 0).val / 400, hq⟩, flush0_4 _, ?_⟩
    rw [mem_blk_prod]
    intro a
    match a with
    | ⟨0, _⟩ =>
      show win0_4.index ⟨(i 0).val / 400, hq⟩ (0 : Fin 2) * 400 ≤ (i 0).val
        ∧ (i 0).val < win0_4.index ⟨(i 0).val / 400, hq⟩ (0 : Fin 2) * 400 + 400
      rw [e40]; dsimp only; omega
    | ⟨1, _⟩ =>
      show win0_4.index ⟨(i 0).val / 400, hq⟩ (1 : Fin 2) * 128 ≤ (i 1).val
        ∧ (i 1).val < win0_4.index ⟨(i 0).val / 400, hq⟩ (1 : Fin 2) * 128 + 128
      rw [e41]; omega

/-! ## The copy of the Laplacian -/

/-- What point t writes back to the first output array is block t of L. -/
theorem flushed_lb (c : Dev nD) (t : Fin cfg0.N) :
    (dat0 (F := Ideal) V c).flushed 2 t
      = ((cfg0.win 2).blk t).view.read (Elt Ideal) (V c main_arg0 : LapMat) := by
  show (cfg0.win 2).cut (grid0.coords t) ((dat0 V c).after 2 t) = _
  rw [after0_2]
  unfold outsAt0
  dsimp only
  rw [piece_lb]
  obtain ⟨e00, e01, e10, e11, e20, e21, e30, e31, e40, e41, eo0, eo1⟩ := idx_facts t
  funext j
  obtain ⟨p, k, rfl⟩ : ∃ (p : Fin 400) (k : Fin 10000), j = ix2 p k := ⟨j 0, j 1, eq_ix2 j⟩
  show V c main_arg0 (((cfg0.win 0).blk t).view.emb (ix2 p k)) = V c main_arg0 (((cfg0.win 2).blk t).view.emb (ix2 p k))
  refine congrArg _ (funext fun a => Fin.ext ?_)
  match a with
  | ⟨0, _⟩ => show win0_0.index t (0 : Fin 2) * 400 + 1 * p.val = win0_2.index t (0 : Fin 2) * 400 + 1 * p.val; rw [e00, e20]
  | ⟨1, _⟩ => show win0_0.index t (1 : Fin 2) * 10000 + 1 * k.val = win0_2.index t (1 : Fin 2) * 10000 + 1 * k.val; rw [e01, e21]

theorem mem_blk_lb (t : Fin cfg0.N) (i : S10000x10000.Idx) :
    i ∈ ((cfg0.win 2).blk t).view.set ↔ ∀ a : Fin 2, win0_2.index t a * S400x10000.size a ≤ (i a).val
      ∧ (i a).val < win0_2.index t a * S400x10000.size a + S400x10000.size a := by
  show i ∈ ((View.whole main_v6_0).slice (win0_2.rect t)).set ↔ _
  rw [View.set_slice_whole, Rect.mem_set_unit]
  exact Iff.rfl

/-- The first output array ends holding L. -/
theorem final_lb (c : Dev nD) :
    (dat0 (F := Ideal) V c).arrAt 2 cfg0.N = (V c main_arg0 : LapMat) :=
  (dat0 V c).arrAt_eq_of_cover 2 _ (fun t _ => flushed_lb V c t) fun i => by
    have hi0 : (i 0).val < 10000 := (i 0).isLt
    have hi1 : (i 1).val < 10000 := (i 1).isLt
    have hq : (i 0).val / 400 < cfg0.N := lt_of_lt_of_eq (show (i 0).val / 400 < 25 by omega) N_0.symm
    obtain ⟨e00, e01, e10, e11, e20, e21, e30, e31, e40, e41, eo0, eo1⟩ := idx_facts ⟨(i 0).val / 400, hq⟩
    refine ⟨⟨(i 0).val / 400, hq⟩, flush0_2 _, ?_⟩
    rw [mem_blk_lb]
    intro a
    match a with
    | ⟨0, _⟩ =>
      show win0_2.index ⟨(i 0).val / 400, hq⟩ (0 : Fin 2) * 400 ≤ (i 0).val
        ∧ (i 0).val < win0_2.index ⟨(i 0).val / 400, hq⟩ (0 : Fin 2) * 400 + 400
      rw [e20]; dsimp only; omega
    | ⟨1, _⟩ =>
      show win0_2.index ⟨(i 0).val / 400, hq⟩ (1 : Fin 2) * 10000 ≤ (i 1).val
        ∧ (i 1).val < win0_2.index ⟨(i 0).val / 400, hq⟩ (1 : Fin 2) * 10000 + 10000
      rw [e21]; omega

/-! ## The copy of the features -/

/-- What point t writes back to the second output array is block t of x: the body loads rows 400 t .. 400 t + 399 of
    the whole feature matrix, which is where the output's block sits. -/
theorem flushed_rows (c : Dev nD) (t : Fin cfg0.N) :
    (dat0 (F := Ideal) V c).flushed 3 t
      = ((cfg0.win 3).blk t).view.read (Elt Ideal) (V c main_v1 : Feat) := by
  show (cfg0.win 3).cut (grid0.coords t) ((dat0 V c).after 3 t) = _
  rw [after0_3]
  unfold outsAt0
  dsimp only
  rw [piece_rows]
  obtain ⟨e00, e01, e10, e11, e20, e21, e30, e31, e40, e41, eo0, eo1⟩ := idx_facts t
  funext j
  obtain ⟨p, q, rfl⟩ : ∃ (p : Fin 400) (q : Fin 128), j = ix2 p q := ⟨j 0, j 1, eq_ix2 j⟩
  refine (pay3_apply _ (ix2 p q)).trans ?_
  show V c main_v1 (((cfg0.win 1).blk t).view.emb
      ((Rect.unit (s := S10000x128) (k0_off1 (grid0.coords t)) S400x128.size (k0_off1_inb (grid0.coords t))).idx (ix2 p q)))
    = V c main_v1 (((cfg0.win 3).blk t).view.emb (ix2 p q))
  refine congrArg _ (funext fun a => Fin.ext ?_)
  match a with
  | ⟨0, _⟩ =>
    show win0_1.index t (0 : Fin 2) * 10000 + 1 * (k0_off1 (grid0.coords t) (0 : Fin 2) + 1 * p.val)
      = win0_3.index t (0 : Fin 2) * 400 + 1 * p.val
    rw [e10, eo0, e30]; omega
  | ⟨1, _⟩ =>
    show win0_1.index t (1 : Fin 2) * 128 + 1 * (k0_off1 (grid0.coords t) (1 : Fin 2) + 1 * q.val)
      = win0_3.index t (1 : Fin 2) * 128 + 1 * q.val
    rw [e11, eo1, e31]; omega

theorem mem_blk_rows (t : Fin cfg0.N) (i : S10000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v6_1).slice (win0_3.rect t)).set ↔ _
  rw [View.set_slice_whole, Rect.mem_set_unit]
  exact Iff.rfl

/-- The second output array ends holding x. -/
theorem final_rows (c : Dev nD) :
    (dat0 (F := Ideal) V c).arrAt 3 cfg0.N = (V c main_v1 : Feat) :=
  (dat0 V c).arrAt_eq_of_cover 3 _ (fun t _ => flushed_rows V c t) fun i => by
    have hi0 : (i 0).val < 10000 := (i 0).isLt
    have hi1 : (i 1).val < 128 := (i 1).isLt
    have hq : (i 0).val / 400 < cfg0.N := lt_of_lt_of_eq (show (i 0).val / 400 < 25 by omega) N_0.symm
    obtain ⟨e00, e01, e10, e11, e20, e21, e30, e31, e40, e41, eo0, eo1⟩ := idx_facts ⟨(i 0).val / 400, hq⟩
    refine ⟨⟨(i 0).val / 400, hq⟩, flush0_3 _, ?_⟩
    rw [mem_blk_rows]
    intro a
    match a with
    | ⟨0, _⟩ =>
      show win0_3.index ⟨(i 0).val / 400, hq⟩ (0 : Fin 2) * 400 ≤ (i 0).val
        ∧ (i 0).val < win0_3.index ⟨(i 0).val / 400, hq⟩ (0 : Fin 2) * 400 + 400
      rw [e30]; dsimp only; omega
    | ⟨1, _⟩ =>
      show win0_3.index ⟨(i 0).val / 400, hq⟩ (1 : Fin 2) * 128 ≤ (i 1).val
        ∧ (i 1).val < win0_3.index ⟨(i 0).val / 400, hq⟩ (1 : Fin 2) * 128 + 128
      rw [e31]; omega

end Cert.KernelIdeal.Pass1

end
-- ==== Proof.Pass2Body.lean ====
/-
  The second pass, one grid point: what its body leaves in its output block.

  On a block of 1000 rows of the Laplacian L (the half-precision copy), the whole matrix x and the whole matrix y the
  body stores 2 (L_block x) - y_rows, where y_rows are rows 1000 i .. 1000 i + 999 of y. It is one store covering
  the block; read at an entry (p, q) the stored value is twice the sum over the 10000 nodes k of L (p, k) x (k, q),
  minus y_rows (p, q): widening and narrowing between the two float formats are the identity over the extended reals.
-/
import proofs.«146052_g1580547967739_cont_week2b_856_7_alg».proof.Proof.Gen.KernelIdeal.Frame
import proofs.«146052_g1580547967739_cont_week2b_856_7_alg».proof.Proof.LibMatmul
import proofs.«146052_g1580547967739_cont_week2b_856_7_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Pass2

open Cert.KernelIdeal Cert.KernelIdeal.Gen

theorem hz : (![0, 0] : Fin 2 → Nat) = fun _ => 0 := funext fun a => by fin_cases a <;> rfl

section Pieces
variable {F : FTy → Type} [FloatOps F]

/-- The output block holds the stored value, of the block of L, the whole of x and the loaded rows of y. -/
theorem piece_step (c : Dev nD) (i : grid1.Coords) (a1 : Memref sig .tc .vmem S1000x10000 .bf16) (h1 : a1.IsWhole)
    (a2 : Memref sig .tc .vmem S10000x128 .bf16) (h2 : a2.IsWhole) (a3 : Memref sig .tc .vmem S10000x128 .bf16) (h3 : a3.IsWhole)
    (a4 : Memref sig .tc .vmem S1000x128 .bf16) (h4 : a4.IsWhole)
    (x0 : Vec F S1000x10000 .bf16) (x1 : Vec F S10000x128 .bf16) (x2 : Vec F S10000x128 .bf16) :
    out1_A_3 c i a1 h1 a2 h2 a3 h3 a4 h4 x0 x1 x2
      = k1_pay1 x0 x1 (View.ld x2 (Rect.unit (s := S10000x128) (k1_off1 i) S1000x128.size (k1_off1_inb i))) := by
  unfold out1_A_3
  rw [View.read_writes_eq_canon _ _ _ (cover1_A_3 c i a1 h1 a2 h2 a3 h3 a4 h4 x0 x1 x2)]
  unfold kernelRun1_A
  dsimp only
  rw [View.canon_unit_zero hz]
  simp only [View.readAt_eq_ld, h1.read_unread, h2.read_unread, h3.read_unread, View.ld_unit_zero (S := S1000x10000) hz,
    View.ld_unit_zero (S := S10000x128) hz]

end Pieces

/-- The product of a 1000-row block with a whole feature matrix, at an entry: the sum over the nodes. -/
theorem dot1000 (l : FVec Ideal S1000x10000 .bf16) (r : FVec Ideal S10000x128 .bf16) (p : Fin 1000) (q : Fin 128) :
    FloatOps.matmul dot_S1000x10000_S10000x128_S1000x128_1_0_0_1_n_n none l r (constant (F := Ideal) S1000x128 .f32 0x00000000#32) (ix2 p q)
      = ∑ k : Fin 10000, l (ix2 p k) * r (ix2 k q) :=
  Cert.LibMatmul.matmul_zero_ix2 dot_S1000x10000_S10000x128_S1000x128_1_0_0_1_n_n rfl rfl
    (fun i q => by
      unfold DotDims.lhsIdx
      rw [dif_neg (show ¬(0 : Fin S1000x10000.rank) ∈ dot_S1000x10000_S10000x128_S1000x128_1_0_0_1_n_n.lhsBatch by decide),
        dif_pos (show (0 : Fin S1000x10000.rank) ∈ dot_S1000x10000_S10000x128_S1000x128_1_0_0_1_n_n.lhsNonContracting by decide)]
      rfl)
    (fun i q => dot_S1000x10000_S10000x128_S1000x128_1_0_0_1_n_n.lhsIdx_val_of_single rfl i q)
    (fun i q => dot_S1000x10000_S10000x128_S1000x128_1_0_0_1_n_n.rhsIdx_val_of_single rfl i q)
    (fun i q => by
      unfold DotDims.rhsIdx
      rw [dif_neg (show ¬(1 : Fin S10000x128.rank) ∈ dot_S1000x10000_S10000x128_S1000x128_1_0_0_1_n_n.rhsBatch by decide),
        dif_pos (show (1 : Fin S10000x128.rank) ∈ dot_S1000x10000_S10000x128_S1000x128_1_0_0_1_n_n.rhsNonContracting by decide)]
      rfl)
    none l r p q

/-- The stored value at an entry. -/
theorem pay_apply (l : FVec Ideal S1000x10000 .bf16) (x : FVec Ideal S10000x128 .bf16) (y : FVec Ideal S1000x128 .bf16)
    (p : Fin 1000) (q : Fin 128) :
    k1_pay1 (F := Ideal) l x y (ix2 p q)
      = Cert.Cheb.two * (∑ k : Fin 10000, l (ix2 p k) * x (ix2 k q)) - y (ix2 p q) := by
  unfold k1_pay1
  rw [shapeCast_self, shapeCast_self, shapeCast_self]
  show Cert.Cheb.two * FloatOps.matmul dot_S1000x10000_S10000x128_S1000x128_1_0_0_1_n_n none l x
      (constant (F := Ideal) S1000x128 .f32 0x00000000#32) (ix2 p q) - y (ix2 p q) = _
  rw [dot1000]

end Cert.KernelIdeal.Pass2

end
-- ==== Proof.Pass2.lean ====
/-
  The second pass, whole: what its output array holds when it has run, for any contents V of the buffers at its entry.

  Its grid has 10 points; point t works on rows 1000 t .. 1000 t + 999. With L, x, y the contents of its three input
  arrays, the output array ends holding 2 (L x) - y: each block written back is the corresponding block of that
  whole-array function (the body loads the rows of y where the output's block sits), and the 10 blocks of 1000 rows
  tile the 10000 rows (row r lies in the block of point r / 1000).
-/
import proofs.«146052_g1580547967739_cont_week2b_856_7_alg».proof.Proof.Pass2Body

noncomputable section

open Idealize.ShloMosaic Idealize.ShloMosaic.TcCoe Idealize.SL.Sem Idealize.ShloMosaic.ValueIdx
open Idealize.ShloMosaic.Pipeline (Dat)

namespace Cert.KernelIdeal.Pass2

open Cert.KernelIdeal Cert.KernelIdeal.Gen Cert.Cheb

variable (V : (c : Dev nD) → (b : Ref sig .tc) → Buf (Elt Ideal) ((c : Thread nD τ).loc b))

/-- The block index of every window at every point, and the row offset the body computes: decided over the grid. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ k1_off1 (grid1.coords t) (0 : Fin 2) = 1000 * t.val ∧ k1_off1 (grid1.coords t) (1 : Fin 2) = 0 :=
  (by decide +kernel : ∀ t : Fin grid1.N, _)

theorem lt_N (t : Fin cfg1.N) : t.val < 10 := lt_of_lt_of_eq t.isLt N_1

/-- What point t writes back is block t of 2 (L x) - y. -/
theorem flushed_step (c : Dev nD) (t : Fin cfg1.N) :
    (dat1 (F := Ideal) V c).flushed 3 t
      = ((cfg1.win 3).blk t).view.read (Elt Ideal) (next (V c main_v6_0) (V c main_v6_2) (V c main_v6_1)) := by
  show (cfg1.win 3).cut (grid1.coords t) ((dat1 V c).after 3 t) = _
  rw [after1_3]
  unfold outsAt1
  rw [piece_step]
  obtain ⟨e00, e01, e10, e11, e20, e21, e30, e31, eo0, eo1⟩ := idx_facts t
  have ht := lt_N t
  funext j
  obtain ⟨p, q, rfl⟩ : ∃ (p : Fin 1000) (q : Fin 128), j = ix2 p q := ⟨j 0, j 1, eq_ix2 j⟩
  show k1_pay1 (F := Ideal) (iblk1 V c 0 t) (iblk1 V c 1 t)
      (View.ld (iblk1 V c 2 t) (Rect.unit (s := S10000x128) (k1_off1 (grid1.coords t)) S1000x128.size (k1_off1_inb (grid1.coords t)))) (ix2 p q)
    = next (V c main_v6_0) (V c main_v6_2) (V c main_v6_1) (((cfg1.win 3).blk t).view.emb (ix2 p q))
  refine (pay_apply _ _ _ p q).trans ?_
  have hemb : ((cfg1.win 3).blk t).view.emb (ix2 p q)
      = (ix2 (⟨1000 * t.val + p.val, by have := p.isLt; omega⟩ : Fin 10000) q : S10000x128.Idx) := by
    funext a; apply Fin.ext
    match a with
    | ⟨0, _⟩ => show win1_3.index t (0 : Fin 2) * 1000 + 1 * p.val = 1000 * t.val + p.val; rw [e30]; omega
    | ⟨1, _⟩ => show win1_3.index t (1 : Fin 2) * 128 + 1 * q.val = q.val; rw [e31]; omega
  rw [hemb, next_apply, lap_apply]
  have hy : View.ld (iblk1 V c 2 t) (Rect.unit (s := S10000x128) (k1_off1 (grid1.coords t)) S1000x128.size (k1_off1_inb (grid1.coords t))) (ix2 p q)
      = V c main_v6_1 (ix2 (⟨1000 * t.val + p.val, by have := p.isLt; omega⟩ : Fin 10000) q) := by
    show V c main_v6_1 (((cfg1.win 2).blk t).view.emb
        ((Rect.unit (s := S10000x128) (k1_off1 (grid1.coords t)) S1000x128.size (k1_off1_inb (grid1.coords t))).idx (ix2 p q))) = _
    refine congrArg _ (funext fun a => Fin.ext ?_)
    match a with
    | ⟨0, _⟩ =>
      show win1_2.index t (0 : Fin 2) * 10000 + 1 * (k1_off1 (grid1.coords t) (0 : Fin 2) + 1 * p.val) = 1000 * t.val + p.val
      rw [e20, eo0]; omega
    | ⟨1, _⟩ =>
      show win1_2.index t (1 : Fin 2) * 128 + 1 * (k1_off1 (grid1.coords t) (1 : Fin 2) + 1 * q.val) = q.val
      rw [e21, eo1]; omega
  rw [hy]
  refine congrArg (fun s : EReal => two * s
    - V c main_v6_1 (ix2 (⟨1000 * t.val + p.val, by have := p.isLt; omega⟩ : Fin 10000) q)) ?_
  refine Finset.sum_congr rfl fun k _ => ?_
  have hl : iblk1 V c 0 t (ix2 p k) = V c main_v6_0 (ix2 (⟨1000 * t.val + p.val, by have := p.isLt; omega⟩ : Fin 10000) k) := by
    show V c main_v6_0 (((cfg1.win 0).blk t).view.emb (ix2 p k)) = _
    refine congrArg _ (funext fun a => Fin.ext ?_)
    match a with
    | ⟨0, _⟩ => show win1_0.index t (0 : Fin 2) * 1000 + 1 * p.val = 1000 * t.val + p.val; rw [e00]; omega
    | ⟨1, _⟩ => show win1_0.index t (1 : Fin 2) * 10000 + 1 * k.val = k.val; rw [e01]; omega
  have hr : iblk1 V c 1 t (ix2 k q) = V c main_v6_2 (ix2 k q) := by
    show V c main_v6_2 (((cfg1.win 1).blk t).view.emb (ix2 k q)) = _
    refine congrArg _ (funext fun a => Fin.ext ?_)
    match a with
    | ⟨0, _⟩ => show win1_1.index t (0 : Fin 2) * 10000 + 1 * k.val = k.val; rw [e10]; omega
    | ⟨1, _⟩ => show win1_1.index t (1 : Fin 2) * 128 + 1 * q.val = q.val; rw [e11]; omega
  rw [hl, hr]

theorem mem_blk (t : Fin cfg1.N) (i : S10000x128.Idx) :
    i ∈ ((cfg1.win 3).blk t).view.set ↔ ∀ a : Fin 2, win1_3.index t a * S1000x128.size a ≤ (i a).val
      ∧ (i a).val < win1_3.index t a * S1000x128.size a + S1000x128.size a := by
  show i ∈ ((View.whole main_v7).slice (win1_3.rect t)).set ↔ _
  rw [View.set_slice_whole, Rect.mem_set_unit]
  exact Iff.rfl

/-- The output array ends holding 2 (L x) - y. -/
theorem final_step (c : Dev nD) :
    (dat1 (F := Ideal) V c).arrAt 3 cfg1.N = next (V c main_v6_0) (V c main_v6_2) (V c main_v6_1) :=
  (dat1 V c).arrAt_eq_of_cover 3 _ (fun t _ => flushed_step V c t) fun i => by
    have hi0 : (i 0).val < 10000 := (i 0).isLt
    have hi1 : (i 1).val < 128 := (i 1).isLt
    have hq : (i 0).val / 1000 < cfg1.N := lt_of_lt_of_eq (show (i 0).val / 1000 < 10 by omega) N_1.symm
    obtain ⟨e00, e01, e10, e11, e20, e21, e30, e31, eo0, eo1⟩ := idx_facts ⟨(i 0).val / 1000, hq⟩
    refine ⟨⟨(i 0).val / 1000, hq⟩, flush1_3 _, ?_⟩
    rw [mem_blk]
    intro a
    match a with
    | ⟨0, _⟩ =>
      show win1_3.index ⟨(i 0).val / 1000, hq⟩ (0 : Fin 2) * 1000 ≤ (i 0).val
        ∧ (i 0).val < win1_3.index ⟨(i 0).val / 1000, hq⟩ (0 : Fin 2) * 1000 + 1000
      rw [e30]; dsimp only; omega
    | ⟨1, _⟩ =>
      show win1_3.index ⟨(i 0).val / 1000, hq⟩ (1 : Fin 2) * 128 ≤ (i 1).val
        ∧ (i 1).val < win1_3.index ⟨(i 0).val / 1000, hq⟩ (1 : Fin 2) * 128 + 128
      rw [e31]; omega

end Cert.KernelIdeal.Pass2

end
-- ==== Proof.Pass3Mat.lean ====
/-
  The two matrix products the third region's body takes, read entry by entry over the extended reals.

  Each contracts one axis (the left operand's columns against the right operand's rows) into the zero accumulator, so
  at row p and column q it is the sum over k of  l (p, k) * r (k, q).
-/
import proofs.«146052_g1580547967739_cont_week2b_856_7_alg».proof.Proof.Gen.KernelIdeal.Skeleton
import proofs.«146052_g1580547967739_cont_week2b_856_7_alg».proof.Proof.LibMatmul

noncomputable section

namespace Cert.KernelIdeal.Pass3

open Cert.KernelIdeal Cert.KernelIdeal.Gen Idealize.ShloMosaic Idealize.ShloMosaic.ValueIdx

/-- The 1000 by 10000 times 10000 by 128 product into zero, at row p and column q. -/
theorem mm_big (l : FVec Ideal S1000x10000 .bf16) (r : FVec Ideal S10000x128 .bf16) (p : Fin 1000) (q : Fin 128) :
    matmul dot_S1000x10000_S10000x128_S1000x128_1_0_0_1_n_n none l r (constant S1000x128 .f32 0x00000000#32) (ix2 p q)
      = ∑ k : Fin 10000, l (ix2 p k) * r (ix2 k q) :=
  Cert.LibMatmul.matmul_zero_ix2 dot_S1000x10000_S10000x128_S1000x128_1_0_0_1_n_n rfl rfl
    (fun i k => by
      unfold DotDims.lhsIdx
      rw [dif_neg (show ¬(0 : Fin S1000x10000.rank) ∈ dot_S1000x10000_S10000x128_S1000x128_1_0_0_1_n_n.lhsBatch by decide),
        dif_pos (show (0 : Fin S1000x10000.rank) ∈ dot_S1000x10000_S10000x128_S1000x128_1_0_0_1_n_n.lhsNonContracting by decide)]
      rfl)
    (fun i k => dot_S1000x10000_S10000x128_S1000x128_1_0_0_1_n_n.lhsIdx_val_of_single rfl i k)
    (fun i k => dot_S1000x10000_S10000x128_S1000x128_1_0_0_1_n_n.rhsIdx_val_of_single rfl i k)
    (fun i k => by
      unfold DotDims.rhsIdx
      rw [dif_neg (show ¬(1 : Fin S10000x128.rank) ∈ dot_S1000x10000_S10000x128_S1000x128_1_0_0_1_n_n.rhsBatch by decide),
        dif_pos (show (1 : Fin S10000x128.rank) ∈ dot_S1000x10000_S10000x128_S1000x128_1_0_0_1_n_n.rhsNonContracting by decide)]
      rfl)
    none l r p q

/-- The 1000 by 128 times 128 by 128 product into zero, at row p and column q. -/
theorem mm_small (l : FVec Ideal S1000x128 .f32) (r : FVec Ideal S128x128 .f32) (p : Fin 1000) (q : Fin 128) :
    matmul dot_S1000x128_S128x128_S1000x128_1_0_0_1_n_n none l r (constant S1000x128 .f32 0x00000000#32) (ix2 p q)
      = ∑ k : Fin 128, l (ix2 p k) * r (ix2 k q) :=
  Cert.LibMatmul.matmul_zero_ix2 dot_S1000x128_S128x128_S1000x128_1_0_0_1_n_n rfl rfl
    (fun i k => by
      unfold DotDims.lhsIdx
      rw [dif_neg (show ¬(0 : Fin S1000x128.rank) ∈ dot_S1000x128_S128x128_S1000x128_1_0_0_1_n_n.lhsBatch by decide),
        dif_pos (show (0 : Fin S1000x128.rank) ∈ dot_S1000x128_S128x128_S1000x128_1_0_0_1_n_n.lhsNonContracting by decide)]
      rfl)
    (fun i k => dot_S1000x128_S128x128_S1000x128_1_0_0_1_n_n.lhsIdx_val_of_single rfl i k)
    (fun i k => dot_S1000x128_S128x128_S1000x128_1_0_0_1_n_n.rhsIdx_val_of_single rfl i k)
    (fun i k => by
      unfold DotDims.rhsIdx
      rw [dif_neg (show ¬(1 : Fin S128x128.rank) ∈ dot_S1000x128_S128x128_S1000x128_1_0_0_1_n_n.rhsBatch by decide),
        dif_pos (show (1 : Fin S128x128.rank) ∈ dot_S1000x128_S128x128_S1000x128_1_0_0_1_n_n.rhsNonContracting by decide)]
      rfl)
    none l r p q

end Cert.KernelIdeal.Pass3

end
-- ==== Proof.Pass3Piece.lean ====
/-
  What the third region's body leaves in its output block, as one term of the blocks it is given.

  The body stores once, through the whole output block, the value
    (x0 rows @ W0 + x1 rows @ W1 + x2 rows @ W2) + (2 (L block @ x2) - x1 rows) @ W3 + bias,
  where "rows" are the 1000 rows of a whole 10000-row array starting at the body's row offset and W0 .. W3 are the
  four 128-row slabs of the 512-row weight. The single covering store reads back as its payload, and every load reads
  the given contents through its rectangle.
-/
import proofs.«146052_g1580547967739_cont_week2b_856_7_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pass3

open Cert.KernelIdeal Cert.KernelIdeal.Gen

variable {F : FTy → Type} [FloatOps F]

theorem hz : (![0, 0] : Fin 2 → Nat) = fun _ => 0 := funext fun a => by fin_cases a <;> rfl

/-- The 1000 rows of a whole feature array from the body's row offset at grid coordinates i. -/
def rowsAt (i : grid2.Coords) (X : Vec F S10000x128 .bf16) : Vec F S1000x128 .bf16 :=
  View.ld X (Rect.unit (s := S10000x128) (k2_off1 i) S1000x128.size (k2_off1_inb i))

/-- The 128 rows of the 512-row weight from row offset off. -/
def slabAt (off : Fin 2 → Nat) (inb : ∀ a, off a + S128x128.size a ≤ S512x128.size a) (X : Vec F S512x128 .f32) :
    Vec F S128x128 .f32 :=
  View.ld X (Rect.unit (s := S512x128) off S128x128.size inb)

/-- The body's output block: the one covering store's payload over the loads' values. -/
theorem piece (c : Dev nD) (i : grid2.Coords)
    (a1 : Memref sig .tc .vmem S1000x10000 .bf16) (h1 : a1.IsWhole)
    (a2 : Memref sig .tc .vmem S10000x128 .bf16) (h2 : a2.IsWhole)
    (a3 : Memref sig .tc .vmem S10000x128 .bf16) (h3 : a3.IsWhole)
    (a4 : Memref sig .tc .vmem S10000x128 .bf16) (h4 : a4.IsWhole)
    (a5 : Memref sig .tc .vmem S512x128 .f32) (h5 : a5.IsWhole)
    (a6 : Memref sig .tc .vmem S1x128 .f32) (h6 : a6.IsWhole)
    (a7 : Memref sig .tc .vmem S1000x128 .f32) (h7 : a7.IsWhole)
    (x0 : Vec F S1000x10000 .bf16) (x1 : Vec F S10000x128 .bf16) (x2 : Vec F S10000x128 .bf16)
    (x3 : Vec F S10000x128 .bf16) (x4 : Vec F S512x128 .f32) (x5 : Vec F S1x128 .f32) :
    out2_A_6 c i a1 h1 a2 h2 a3 h3 a4 h4 a5 h5 a6 h6 a7 h7 x0 x1 x2 x3 x4 x5
      = k2_pay1 (k2_pay3 x0 x1 (rowsAt i x2))
          (k2_pay4 (rowsAt i x3) (rowsAt i x2) (rowsAt i x1)
            (slabAt ![0, 0] inb_S512x128_S128x128_0_0 x4) (slabAt ![128, 0] inb_S512x128_S128x128_128_0 x4)
            (slabAt ![256, 0] inb_S512x128_S128x128_256_0 x4))
          (k2_pay5 (slabAt ![384, 0] inb_S512x128_S128x128_384_0 x4)) x5 := by
  unfold out2_A_6
  rw [View.read_writes_eq_canon _ _ _ (cover2_A_6 c i a1 h1 a2 h2 a3 h3 a4 h4 a5 h5 a6 h6 a7 h7 x0 x1 x2 x3 x4 x5)]
  unfold kernelRun2_A
  dsimp only
  sl_unfold_words
  rw [View.canon_unit_zero hz]
  simp only [View.readAt_eq_ld, h1.read_unread, h2.read_unread, h3.read_unread, h4.read_unread, h5.read_unread,
    h6.read_unread, View.ld_unit_zero (S := S1000x10000) hz, View.ld_unit_zero (S := S10000x128) hz,
    View.ld_unit_zero (S := S1x128) hz]
  rfl

end Cert.KernelIdeal.Pass3

end
-- ==== Proof.Pass3Point.lean ====
/-
  The third region's body at one grid point, entry by entry over the extended reals.

  At point t the body is given rows 1000 t .. 1000 t + 999 of the Laplacian L and the three feature arrays x0, x1, x2,
  the 512-row weight W and the bias row whole; it loads rows 1000 t .. 1000 t + 999 of the feature arrays and the four
  128-row slabs W0 .. W3 of the weight, and leaves in its output block, at row r and column o,
    ((x0 W0 + x1 W1) + x2 W2) + (2 (L x2) - x1) W3 + bias      at node p = 1000 t + r and output feature o.
-/
import proofs.«146052_g1580547967739_cont_week2b_856_7_alg».proof.Proof.Pass3Mat
import proofs.«146052_g1580547967739_cont_week2b_856_7_alg».proof.Proof.Pass3Piece
import proofs.«146052_g1580547967739_cont_week2b_856_7_alg».proof.Proof.Spec

noncomputable section

open Idealize.ShloMosaic Idealize.ShloMosaic.TcCoe Idealize.SL.Sem
open Idealize.ShloMosaic.Pipeline (Dat)

namespace Cert.KernelIdeal.Pass3

open Cert.KernelIdeal Cert.KernelIdeal.Gen Idealize.ShloMosaic.ValueIdx

/-! ## The body's arithmetic, entry by entry -/

/-- Widening a block is the identity on its entries. -/
theorem pay2_apply (v : Vec Ideal S1000x128 .bf16) (j : S1000x128.Idx) : k2_pay2 (F := Ideal) v j = v j := by
  unfold k2_pay2
  rw [shapeCast_self]
  rfl

/-- The last slab passes through unchanged. -/
theorem pay5_eq (v : Vec Ideal S128x128 .f32) : k2_pay5 (F := Ideal) v = v := by
  unfold k2_pay5
  exact shapeCast_self _ _

/-- The recurrence step on a block: 2 (L block @ x) - y. -/
theorem pay3_apply (x0 : Vec Ideal S1000x10000 .bf16) (x1 : Vec Ideal S10000x128 .bf16) (y : Vec Ideal S1000x128 .bf16)
    (r : Fin 1000) (o : Fin 128) :
    k2_pay3 (F := Ideal) x0 x1 y (ix2 r o)
      = Cert.Cheb.two * (∑ k : Fin 10000, x0 (ix2 r k) * x1 (ix2 k o)) - y (ix2 r o) := by
  unfold k2_pay3
  rw [shapeCast_self, shapeCast_self]
  show Cert.Cheb.two * matmul (F := Ideal) dot_S1000x10000_S10000x128_S1000x128_1_0_0_1_n_n none x0 x1
      (constant (F := Ideal) S1000x128 .f32 0x00000000#32) (ix2 r o) - k2_pay2 (F := Ideal) y (ix2 r o) = _
  rw [mm_big, pay2_apply]

/-- The first three products, added left to right. -/
theorem pay4_apply (v7 v12 v17 : Vec Ideal S1000x128 .bf16) (w0 w1 w2 : Vec Ideal S128x128 .f32) (r : Fin 1000) (o : Fin 128) :
    k2_pay4 (F := Ideal) v7 v12 v17 w0 w1 w2 (ix2 r o)
      = ((∑ f : Fin 128, v7 (ix2 r f) * w0 (ix2 f o)) + (∑ f : Fin 128, v12 (ix2 r f) * w1 (ix2 f o)))
        + ∑ f : Fin 128, v17 (ix2 r f) * w2 (ix2 f o) := by
  unfold k2_pay4
  rw [shapeCast_self, shapeCast_self, shapeCast_self, shapeCast_self, shapeCast_self]
  show (matmul (F := Ideal) dot_S1000x128_S128x128_S1000x128_1_0_0_1_n_n none (extf (F := Ideal) .f32 v7 bitsLt_bf16_f32) w0 (constant (F := Ideal) S1000x128 .f32 0x00000000#32) (ix2 r o)
      + matmul (F := Ideal) dot_S1000x128_S128x128_S1000x128_1_0_0_1_n_n none (k2_pay2 (F := Ideal) v12) w1 (constant (F := Ideal) S1000x128 .f32 0x00000000#32) (ix2 r o))
      + matmul (F := Ideal) dot_S1000x128_S128x128_S1000x128_1_0_0_1_n_n none (extf (F := Ideal) .f32 v17 bitsLt_bf16_f32) w2 (constant (F := Ideal) S1000x128 .f32 0x00000000#32) (ix2 r o) = _
  rw [mm_small, mm_small, mm_small]
  simp only [pay2_apply]
  rfl

/-- The last product and the bias row, added to the first three. -/
theorem pay1_apply (v22 v33 : FVec Ideal S1000x128 .f32) (v35 : FVec Ideal S128x128 .f32) (v38 : Vec Ideal S1x128 .f32)
    (r : Fin 1000) (o : Fin 128) :
    k2_pay1 (F := Ideal) v22 v33 v35 v38 (ix2 r o)
      = (v33 (ix2 r o) + ∑ f : Fin 128, v22 (ix2 r f) * v35 (ix2 f o)) + v38 (ix2 (0 : Fin 1) o) := by
  unfold k2_pay1
  rw [shapeCast_self]
  show (v33 (ix2 r o) + matmul (F := Ideal) dot_S1000x128_S128x128_S1000x128_1_0_0_1_n_n none v22 v35 (constant (F := Ideal) S1000x128 .f32 0x00000000#32) (ix2 r o))
      + broadcastTo S1000x128 v38 broadcasts_S1x128_S1000x128 (ix2 r o) = _
  rw [mm_small, broadcastTo_apply v38 broadcasts_S1x128_S1000x128 (ix2 r o) (ix2 (0 : Fin 1) o) (fun a => by
    match a with
    | ⟨0, _⟩ => rfl
    | ⟨1, _⟩ => rfl)]

/-! ## The loads, entry by entry -/

/-- Row r of the 1000 rows loaded from row offset 1000 n is row 1000 n + r of the array. -/
theorem rowsAt_apply (i : grid2.Coords) (n : ℕ) (hn : k2_off1 i = ![1000 * n, 0]) (X : Vec Ideal S10000x128 .bf16)
    (r : Fin 1000) (f : Fin 128) (p : Fin 10000) (hp : p.val = 1000 * n + r.val) :
    rowsAt (F := Ideal) i X (ix2 r f) = X (ix2 p f) := by
  refine congrArg X (funext fun a => Fin.ext ?_)
  match a with
  | ⟨0, _⟩ =>
    show k2_off1 i 0 + 1 * r.val = p.val
    rw [hn, hp]
    show 1000 * n + 1 * r.val = _
    omega
  | ⟨1, _⟩ =>
    show k2_off1 i 1 + 1 * f.val = f.val
    rw [hn]
    show 0 + 1 * f.val = _
    omega

/-- Row f of the slab at row offset 128 k is row 128 k + f of the weight. -/
theorem slabAt_apply (k : Fin 4) (off : Fin 2 → Nat) (hoff : off = ![128 * k.val, 0])
    (inb : ∀ a, off a + S128x128.size a ≤ S512x128.size a) (X : Vec Ideal S512x128 .f32) (f o : Fin 128) :
    slabAt (F := Ideal) off inb X (ix2 f o) = X (ix2 (Cert.Cheb.wrow k f) o) := by
  subst hoff
  refine congrArg X (funext fun a => Fin.ext ?_)
  match a with
  | ⟨0, _⟩ =>
    show 128 * k.val + 1 * f.val = 128 * k.val + f.val
    omega
  | ⟨1, _⟩ =>
    show 0 + 1 * o.val = o.val
    omega

/-! ## The whole body at one entry -/

/-- The body's output block at row r and column o, from blocks whose row offset is 1000 n: with p = 1000 n + r the row
    in the whole arrays. -/
theorem body_apply (i : grid2.Coords) (n : ℕ) (hn : k2_off1 i = ![1000 * n, 0])
    (x0 : Vec Ideal S1000x10000 .bf16) (x1 x2 x3 : Vec Ideal S10000x128 .bf16) (x4 : Vec Ideal S512x128 .f32)
    (x5 : Vec Ideal S1x128 .f32) (r : Fin 1000) (o : Fin 128) (p : Fin 10000) (hp : p.val = 1000 * n + r.val) :
    k2_pay1 (F := Ideal) (k2_pay3 x0 x1 (rowsAt i x2))
        (k2_pay4 (rowsAt i x3) (rowsAt i x2) (rowsAt i x1)
          (slabAt ![0, 0] inb_S512x128_S128x128_0_0 x4) (slabAt ![128, 0] inb_S512x128_S128x128_128_0 x4)
          (slabAt ![256, 0] inb_S512x128_S128x128_256_0 x4))
        (k2_pay5 (slabAt ![384, 0] inb_S512x128_S128x128_384_0 x4)) x5 (ix2 r o)
      = ((((∑ f : Fin 128, x3 (ix2 p f) * x4 (ix2 (Cert.Cheb.wrow 0 f) o))
            + (∑ f : Fin 128, x2 (ix2 p f) * x4 (ix2 (Cert.Cheb.wrow 1 f) o)))
          + (∑ f : Fin 128, x1 (ix2 p f) * x4 (ix2 (Cert.Cheb.wrow 2 f) o)))
        + (∑ f : Fin 128, (Cert.Cheb.two * (∑ k : Fin 10000, x0 (ix2 r k) * x1 (ix2 k f)) - x2 (ix2 p f))
            * x4 (ix2 (Cert.Cheb.wrow 3 f) o)))
        + x5 (ix2 (0 : Fin 1) o) := by
  rw [pay1_apply, pay4_apply, pay5_eq]
  simp only [pay3_apply, rowsAt_apply i n hn _ r _ p hp,
    slabAt_apply 0 ![0, 0] rfl, slabAt_apply 1 ![128, 0] rfl, slabAt_apply 2 ![256, 0] rfl, slabAt_apply 3 ![384, 0] rfl]

/-! ## The blocks the body is given at point t, entry by entry -/

section Region

variable (V : (c : Dev nD) → (b : Ref sig .tc) → Buf (Elt Ideal) ((c : Thread nD τ).loc b))

/-- The index maps over the grid: the Laplacian's and the output's row-block index is the point's number, every other
    block index is zero, and the grid coordinate is the point's number. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ (grid2.coords t (0 : Fin 1)).val = t.val :=
  (by decide +kernel : ∀ t : Fin grid2.N, _)

/-- The body's row offset at point t is 1000 t. -/
theorem off_at (t : Fin cfg2.N) : k2_off1 (grid2.coords t) = ![1000 * t.val, 0] := by
  rw [k2_off1_eq, (idx_facts t).2.2.2.2.2.2.2.2.2.2.2.2.2.2]

/-- Point t's block of the Laplacian is its rows 1000 t .. 1000 t + 999. -/
theorem blk0_apply (c : Dev nD) (t : Fin cfg2.N) (r : Fin 1000) (k : Fin 10000) (p : Fin 10000)
    (hp : p.val = 1000 * t.val + r.val) :
    (iblk2 V c 0 t : Vec Ideal S1000x10000 .bf16) (ix2 r k)
      = (V c main_v6_0 : S10000x10000.Idx → Elt Ideal .bf16) (ix2 p k) := by
  obtain ⟨e0, e1, -⟩ := idx_facts t
  unfold iblk2
  rw [View.read_apply]
  show V c main_v6_0 _ = V c main_v6_0 _
  congr 1
  funext a
  apply Fin.ext
  match a with
  | ⟨0, _⟩ => show win2_0.index t 0 * 1000 + 1 * r.val = p.val; rw [e0, hp]; omega
  | ⟨1, _⟩ => show win2_0.index t 1 * 10000 + 1 * k.val = k.val; rw [e1]; omega

/-- The three feature arrays, the weight and the bias row are given whole at every point. -/
theorem blk1_eq (c : Dev nD) (t : Fin cfg2.N) :
    (iblk2 V c 1 t : Vec Ideal S10000x128 .bf16) = (V c main_v7 : S10000x128.Idx → Elt Ideal .bf16) := by
  obtain ⟨-, -, e0, e1, -⟩ := idx_facts t
  funext j
  unfold iblk2
  rw [View.read_apply]
  show V c main_v7 _ = V c main_v7 _
  congr 1
  funext a
  apply Fin.ext
  match a with
  | ⟨0, _⟩ => show win2_1.index t 0 * 10000 + 1 * (j 0).val = (j 0).val; rw [e0]; omega
  | ⟨1, _⟩ => show win2_1.index t 1 * 128 + 1 * (j 1).val = (j 1).val; rw [e1]; omega

theorem blk2_eq (c : Dev nD) (t : Fin cfg2.N) :
    (iblk2 V c 2 t : Vec Ideal S10000x128 .bf16) = (V c main_v6_2 : S10000x128.Idx → Elt Ideal .bf16) := by
  obtain ⟨-, -, -, -, e0, e1, -⟩ := idx_facts t
  funext j
  unfold iblk2
  rw [View.read_apply]
  show V c main_v6_2 _ = V c main_v6_2 _
  congr 1
  funext a
  apply Fin.ext
  match a with
  | ⟨0, _⟩ => show win2_2.index t 0 * 10000 + 1 * (j 0).val = (j 0).val; rw [e0]; omega
  | ⟨1, _⟩ => show win2_2.index t 1 * 128 + 1 * (j 1).val = (j 1).val; rw [e1]; omega

theorem blk3_eq (c : Dev nD) (t : Fin cfg2.N) :
    (iblk2 V c 3 t : Vec Ideal S10000x128 .bf16) = (V c main_v6_1 : S10000x128.Idx → Elt Ideal .bf16) := by
  obtain ⟨-, -, -, -, -, -, e0, e1, -⟩ := idx_facts t
  funext j
  unfold iblk2
  rw [View.read_apply]
  show V c main_v6_1 _ = V c main_v6_1 _
  congr 1
  funext a
  apply Fin.ext
  match a with
  | ⟨0, _⟩ => show win2_3.index t 0 * 10000 + 1 * (j 0).val = (j 0).val; rw [e0]; omega
  | ⟨1, _⟩ => show win2_3.index t 1 * 128 + 1 * (j 1).val = (j 1).val; rw [e1]; omega

theorem blk4_eq (c : Dev nD) (t : Fin cfg2.N) :
    (iblk2 V c 4 t : Vec Ideal S512x128 .f32) = (V c main_v4 : S512x128.Idx → Elt Ideal .f32) := by
  obtain ⟨-, -, -, -, -, -, -, -, e0, e1, -⟩ := idx_facts t
  funext j
  unfold iblk2
  rw [View.read_apply]
  show V c main_v4 _ = V c main_v4 _
  congr 1
  funext a
  apply Fin.ext
  match a with
  | ⟨0, _⟩ => show win2_4.index t 0 * 512 + 1 * (j 0).val = (j 0).val; rw [e0]; omega
  | ⟨1, _⟩ => show win2_4.index t 1 * 128 + 1 * (j 1).val = (j 1).val; rw [e1]; omega

theorem blk5_eq (c : Dev nD) (t : Fin cfg2.N) :
    (iblk2 V c 5 t : Vec Ideal S1x128 .f32) = (V c main_v5 : S1x128.Idx → Elt Ideal .f32) := by
  obtain ⟨-, -, -, -, -, -, -, -, -, -, e0, e1, -⟩ := idx_facts t
  funext j
  unfold iblk2
  rw [View.read_apply]
  show V c main_v5 _ = V c main_v5 _
  congr 1
  funext a
  apply Fin.ext
  match a with
  | ⟨0, _⟩ => show win2_5.index t 0 * 1 + 1 * (j 0).val = (j 0).val; rw [e0]; omega
  | ⟨1, _⟩ => show win2_5.index t 1 * 128 + 1 * (j 1).val = (j 1).val; rw [e1]; omega

end Region

/-! ## The output array after the ten points -/

section Final

variable (V : (c : Dev nD) → (b : Ref sig .tc) → Buf (Elt Ideal) ((c : Thread nD τ).loc b))

/-- The closed form: the order-four combination of the arrays the region finds on entry. -/
abbrev G (c : Dev nD) : Cert.Cheb.Feat :=
  Cert.Cheb.combine (V c main_v6_1) (V c main_v6_2) (V c main_v7)
    (Cert.Cheb.next (V c main_v6_0) (V c main_v7) (V c main_v6_2)) (V c main_v4) (V c main_v5)

/-- What the body leaves at point t, at row r and column o of its block, is the closed form at row 1000 t + r. -/
theorem out_apply (c : Dev nD) (t : Fin cfg2.N) (r : Fin 1000) (o : Fin 128) (p : Fin 10000)
    (hp : p.val = 1000 * t.val + r.val) : outsAt2 V c t (ix2 r o) = G V c (ix2 p o) := by
  unfold outsAt2
  refine (congrFun (piece c (grid2.coords t) (ms2_0 t) (hs2_0 t) (ms2_1 t) (hs2_1 t) (ms2_2 t) (hs2_2 t)
    (ms2_3 t) (hs2_3 t) (ms2_4 t) (hs2_4 t) (ms2_5 t) (hs2_5 t) (ms2_6 t) (hs2_6 t)
    (iblk2 V c 0 t) (iblk2 V c 1 t) (iblk2 V c 2 t) (iblk2 V c 3 t) (iblk2 V c 4 t) (iblk2 V c 5 t)) (ix2 r o)).trans ?_
  refine (body_apply (grid2.coords t) t.val (off_at t) (iblk2 V c 0 t) (iblk2 V c 1 t) (iblk2 V c 2 t)
    (iblk2 V c 3 t) (iblk2 V c 4 t) (iblk2 V c 5 t) r o p hp).trans ?_
  rw [blk1_eq V c t, blk2_eq V c t, blk3_eq V c t, blk4_eq V c t, blk5_eq V c t]
  simp only [blk0_apply V c t r _ p hp]
  simp only [Cert.Cheb.combine_apply, Cert.Cheb.part_apply, Cert.Cheb.next_apply, Cert.Cheb.lap_apply]

end Final

end Cert.KernelIdeal.Pass3

end
-- ==== Proof.Pass3.lean ====
/-
  The value of the third region: after its ten grid points the output array holds, at node p and output feature q,
    ((x0 W0 + x1 W1) + x2 W2) + (2 (L x2) - x1) W3 + bias
  of the arrays the region finds on entry (x0, x1, x2 the three feature arrays, L the Laplacian, W the 512-row weight
  whose four 128-row slabs are W0 .. W3).

  Point t writes back rows 1000 t .. 1000 t + 999, which are those rows of the closed form, and the ten row blocks
  tile the 10000 rows.
-/
import proofs.«146052_g1580547967739_cont_week2b_856_7_alg».proof.Proof.Pass3Point
import Idealize.ShloMosaic.Lib.Pipeline.Value

noncomputable section

open Idealize.ShloMosaic Idealize.ShloMosaic.TcCoe Idealize.SL.Sem
open Idealize.ShloMosaic.Pipeline (Dat)

namespace Cert.KernelIdeal.Pass3

open Cert.KernelIdeal Cert.KernelIdeal.Gen Idealize.ShloMosaic.ValueIdx

section Final

variable (V : (c : Dev nD) → (b : Ref sig .tc) → Buf (Elt Ideal) ((c : Thread nD τ).loc b))

/-- What point t writes back is block t of the closed form. -/
theorem flushed_eq (c : Dev nD) (t : Fin cfg2.N) :
    (dat2 V c).flushed 6 t = ((cfg2.win 6).blk t).view.read (Elt Ideal) (G V c) := by
  obtain ⟨-, -, -, -, -, -, -, -, -, -, -, -, e0, e1, -⟩ := idx_facts t
  have hN : grid2.N = 10 := N_2
  have ht : t.val < grid2.N := t.isLt
  show (cfg2.win 6).cut (grid2.coords t) ((dat2 V c).after 6 t) = _
  rw [after2_6]
  funext j
  have h0 : (j 0).val < 1000 := (j 0).isLt
  have h1 : (j 1).val < 128 := (j 1).isLt
  have hx : (cfg2.win 6).xinj (grid2.coords t) j = ix2 (⟨(j 0).val, h0⟩ : Fin 1000) (⟨(j 1).val, h1⟩ : Fin 128) :=
    funext fun a => match a with
      | ⟨0, _⟩ => rfl
      | ⟨1, _⟩ => rfl
  rw [View.read_apply]
  show outsAt2 V c t ((cfg2.win 6).xinj (grid2.coords t) j) = G V c (((cfg2.win 6).blk t).view.emb j)
  rw [hx]
  refine (out_apply V c t ⟨(j 0).val, h0⟩ ⟨(j 1).val, h1⟩ ⟨1000 * t.val + (j 0).val, by omega⟩ rfl).trans ?_
  refine congrArg (G V c) (funext fun a => Fin.ext ?_)
  match a with
  | ⟨0, _⟩ =>
    show 1000 * t.val + (j 0).val = win2_6.index t 0 * 1000 + 1 * (j 0).val
    rw [e0]
    omega
  | ⟨1, _⟩ =>
    show (j 1).val = win2_6.index t 1 * 128 + 1 * (j 1).val
    rw [e1]
    omega

/-- After the ten points the output array holds the closed form: row p lies in the block of point p / 1000, and the
    ten blocks tile the 10000 rows. -/
theorem out_final (c : Dev nD) :
    (dat2 (F := Ideal) V c).arrAt 6 cfg2.N
      = (Cert.Cheb.combine (V c main_v6_1) (V c main_v6_2) (V c main_v7)
          (Cert.Cheb.next (V c main_v6_0) (V c main_v7) (V c main_v6_2)) (V c main_v4) (V c main_v5) : Cert.Cheb.Feat) :=
  (dat2 V c).arrAt_eq_of_cover 6 (G V c) (fun t _ => flushed_eq V c t) fun i => by
    have hi0 : (i 0 : Nat) < 10000 := (i 0).isLt
    have hi1 : (i 1 : Nat) < 128 := (i 1).isLt
    have hN : grid2.N = 10 := N_2
    have hlt : (i 0 : Nat) / 1000 < grid2.N := by omega
    obtain ⟨-, -, -, -, -, -, -, -, -, -, -, -, e0, e1, -⟩ := idx_facts ⟨(i 0 : Nat) / 1000, hlt⟩
    refine ⟨⟨(i 0 : Nat) / 1000, hlt⟩, flush2_6 _, ?_⟩
    show i ∈ ((View.whole main_v8).slice (win2_6.rect ⟨(i 0 : Nat) / 1000, hlt⟩)).set
    rw [View.set_slice_whole, Rect.mem_set_unit]
    intro a
    match a with
    | ⟨0, _⟩ =>
      show win2_6.index ⟨(i 0 : Nat) / 1000, hlt⟩ 0 * 1000 ≤ (i 0 : Nat)
        ∧ (i 0 : Nat) < win2_6.index ⟨(i 0 : Nat) / 1000, hlt⟩ 0 * 1000 + 1000
      rw [e0]
      show (i 0 : Nat) / 1000 * 1000 ≤ (i 0 : Nat) ∧ (i 0 : Nat) < (i 0 : Nat) / 1000 * 1000 + 1000
      omega
    | ⟨1, _⟩ =>
      show win2_6.index ⟨(i 0 : Nat) / 1000, hlt⟩ 1 * 128 ≤ (i 1 : Nat)
        ∧ (i 1 : Nat) < win2_6.index ⟨(i 0 : Nat) / 1000, hlt⟩ 1 * 128 + 128
      rw [e1]
      omega

end Final

end Cert.KernelIdeal.Pass3

end
-- ==== Proof.HostLayout.lean ====
/-
  The kernel program's layout operations outside its three launches, read as index functions.

  Before the launches the program re-lays three of its arguments: the node features [1, 10000, 128] become the
  matrix x0 [10000, 128] (axes permuted, the unit axis dropped); the weight [4, 128, 128] is read as [128, 4, 128],
  its first two axes exchanged, and flattened to 512 rows, so that row 128 k + f of the result is entry (f, k) of
  the middle reading, which is row 4 f + k of the weight read as one matrix of 512 rows; the bias [128] becomes
  one row [1, 128]. After the launches the matrix [10000, 128] gets a leading unit axis. Every one of these reads,
  at each index, one element of its operand, found by equating row-major positions.

  Each shape relation is taken as a hypothesis, so the equations hold for whatever proof of it a term carries.
-/
import proofs.«146052_g1580547967739_cont_week2b_856_7_alg».proof.KernelIdeal
import proofs.«146052_g1580547967739_cont_week2b_856_7_alg».proof.Proof.Spec
import Idealize.ShloMosaic.Lib.Pipeline.Value
import Idealize.ShloMosaic.Lib.ValueIdx
import Idealize.ShloMosaic.Lib.ValueLayout

noncomputable section

namespace Cert.KernelIdeal.HostLayout

open Cert.KernelIdeal Idealize.ShloMosaic Idealize.ShloMosaic.ValueIdx Cert.Cheb

/-- The permuted and squeezed input is the feature matrix of the one batch: entry (p, q) is entry (0, p, q). -/
theorem x0_eq (inp : (⟨S1x10000x128, .f32⟩ : BufTy).Contents (Elt Ideal))
    (ht : S1x10000x128.Transposes [1, 2, 0] S10000x128x1) (hc : S10000x128x1.ShapeCasts S10000x128) :
    shapeCast S10000x128 (transpose S10000x128x1 [1, 2, 0] inp ht) hc = feat0 inp := by
  funext i
  obtain ⟨p, q, rfl⟩ : ∃ (p : Fin 10000) (q : Fin 128), i = ix2 p q := ⟨i 0, i 1, eq_ix2 i⟩
  refine (shapeCast_apply _ hc (ix2 p q) (ix3 p q (0 : Fin 1)) (by
    rw [Shape.rowMajor_val_three, Shape.rowMajor_val_two]
    show (p.val * 128 + q.val) * 1 + 0 = p.val * 128 + q.val
    omega)).trans ?_
  exact transpose_apply [1, 2, 0] inp ht (ix3 p q (0 : Fin 1)) (ix3 (0 : Fin 1) p q) (fun b =>
    match b with
    | ⟨0, _⟩ => rfl
    | ⟨1, _⟩ => rfl
    | ⟨2, _⟩ => rfl)

/-- The re-laid weight is the permuted weight: row j = 128 k + f, read through the flattening at (k, f), through
    the exchange at (f, k) of the middle reading, and through the first re-reading at row 4 f + k of the weight as
    one matrix of 512 rows. -/
theorem wp_eq (wt : (⟨S4x128x128, .f32⟩ : BufTy).Contents (Elt Ideal))
    (h1 : S4x128x128.ShapeCasts S128x4x128) (h2 : S128x4x128.Transposes [1, 0, 2] S4x128x128)
    (h3 : S4x128x128.ShapeCasts S512x128) :
    shapeCast S512x128 (transpose S4x128x128 [1, 0, 2] (shapeCast S128x4x128 wt h1) h2) h3 = wperm wt := by
  funext i
  obtain ⟨j, o, rfl⟩ : ∃ (j : Fin 512) (o : Fin 128), i = ix2 j o := ⟨i 0, i 1, eq_ix2 i⟩
  have hj : j.val < 512 := j.isLt
  have ho : o.val < 128 := o.isLt
  refine (shapeCast_apply _ h3 (ix2 j o)
    (ix3 (⟨j.val / 128, by omega⟩ : Fin 4) (⟨j.val % 128, Nat.mod_lt _ (by decide)⟩ : Fin 128) o) (by
    rw [Shape.rowMajor_val_three, Shape.rowMajor_val_two]
    show (j.val / 128 * 128 + j.val % 128) * 128 + o.val = j.val * 128 + o.val
    omega)).trans ?_
  refine (transpose_apply [1, 0, 2] _ h2
    (ix3 (⟨j.val / 128, by omega⟩ : Fin 4) (⟨j.val % 128, Nat.mod_lt _ (by decide)⟩ : Fin 128) o)
    (ix3 (⟨j.val % 128, Nat.mod_lt _ (by decide)⟩ : Fin 128) (⟨j.val / 128, by omega⟩ : Fin 4) o) (fun b =>
    match b with
    | ⟨0, _⟩ => rfl
    | ⟨1, _⟩ => rfl
    | ⟨2, _⟩ => rfl)).trans ?_
  exact shapeCast_apply wt h1
    (ix3 (⟨j.val % 128, Nat.mod_lt _ (by decide)⟩ : Fin 128) (⟨j.val / 128, by omega⟩ : Fin 4) o)
    (ix3 (⟨(4 * (j.val % 128) + j.val / 128) / 128, by omega⟩ : Fin 4)
      (⟨(4 * (j.val % 128) + j.val / 128) % 128, Nat.mod_lt _ (by decide)⟩ : Fin 128) o) (by
    rw [Shape.rowMajor_val_three, Shape.rowMajor_val_three]
    show ((4 * (j.val % 128) + j.val / 128) / 128 * 128 + (4 * (j.val % 128) + j.val / 128) % 128) * 128 + o.val
      = (j.val % 128 * 4 + j.val / 128) * 128 + o.val
    omega)

/-- The bias with a leading unit axis is the bias row. -/
theorem bias_eq (b : (⟨S128, .f32⟩ : BufTy).Contents (Elt Ideal)) (h : S128.ShapeCasts S1x128) :
    shapeCast S1x128 b h = biasRow b := by
  funext i
  obtain ⟨u, o, rfl⟩ : ∃ (u : Fin 1) (o : Fin 128), i = ix2 u o := ⟨i 0, i 1, eq_ix2 i⟩
  exact shapeCast_a_1a_apply b h u o

/-- A matrix given a leading unit axis reads, at (u, p, q), its entry (p, q). -/
theorem out_eq (g : Feat) (h : S10000x128.ShapeCasts S1x10000x128) :
    shapeCast S1x10000x128 g h = fun i => g (ix2 (i 1) (i 2)) := by
  funext i
  obtain ⟨u, p, q, rfl⟩ : ∃ (u : Fin 1) (p : Fin 10000) (q : Fin 128), i = ix3 u p q := ⟨i 0, i 1, i 2, eq_ix3 i⟩
  exact shapeCast_ab_1ab_apply g h u p q

end Cert.KernelIdeal.HostLayout

end
-- ==== Proof.KValue.lean ====
/-
  The idealized kernel program's result, as a function of its arguments.

  The closing reshape gives the third pass' output array a leading unit axis. That array is the four products added
  left to right plus the bias row, of the arrays the third pass finds at its entry: the copy of the Laplacian, the
  three feature matrices and the permuted weight and bias row. Walking back: the second pass left 2 (L t1) - x0 in
  its output and touched nothing else; the first pass left L, x0 and t1 = L x0 in its three outputs; the host
  operations before it made x0, the permuted weight and the bias row out of the arguments. Substituting, the
  result buffer ends holding the convolution of the arguments.
-/
import proofs.«146052_g1580547967739_cont_week2b_856_7_alg».proof.Proof.RunHeld
import proofs.«146052_g1580547967739_cont_week2b_856_7_alg».proof.Proof.Pass1
import proofs.«146052_g1580547967739_cont_week2b_856_7_alg».proof.Proof.Pass2
import proofs.«146052_g1580547967739_cont_week2b_856_7_alg».proof.Proof.Pass3
import proofs.«146052_g1580547967739_cont_week2b_856_7_alg».proof.Proof.HostLayout
import Idealize.ShloMosaic.Lib.StableHlo.Run

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.KValue

open Cert.KernelIdeal Cert.KernelIdeal.Gen Cert.Cheb

variable (m : (ℓ : Loc nD τ sig) → Buf (Elt Ideal) ℓ) (ρ : Dev nD → PrngReg) (c : Dev nD)

/-! ## Entering the first pass: the host operations' results -/

theorem in1_L : (V1 m ρ c main_arg0 : LapMat) = m ((c : Thread nD τ).loc main_arg0) := by
  show StableHlo.after hostOps0 (W0 m ρ c) (Proc.devRef .tc main_arg0) = _
  after_results <;> rfl

theorem in1_x0 : (V1 m ρ c main_v1 : Feat) = feat0 (m ((c : Thread nD τ).loc main_arg1)) := by
  show StableHlo.after hostOps0 (W0 m ρ c) (Proc.devRef .tc main_v1) = _
  after_results
  exact HostLayout.x0_eq _ _ _

theorem in1_w : (V1 m ρ c main_v4 : Wt) = wperm (m ((c : Thread nD τ).loc main_arg2)) := by
  show StableHlo.after hostOps0 (W0 m ρ c) (Proc.devRef .tc main_v4) = _
  after_results
  exact HostLayout.wp_eq _ _ _ _

theorem in1_b : (V1 m ρ c main_v5 : BiasRow) = biasRow (m ((c : Thread nD τ).loc main_arg3)) := by
  show StableHlo.after hostOps0 (W0 m ρ c) (Proc.devRef .tc main_v5) = _
  after_results
  exact HostLayout.bias_eq _ _

/-! ## Entering the second pass: what the first pass left -/

theorem in2_L : (V2 m ρ c main_v6_0 : LapMat) = m ((c : Thread nD τ).loc main_arg0) :=
  (W2_arr m ρ c 2).trans ((Pass1.final_lb (V1 m ρ) c).trans (in1_L m ρ c))

theorem in2_x0 : (V2 m ρ c main_v6_1 : Feat) = feat0 (m ((c : Thread nD τ).loc main_arg1)) :=
  (W2_arr m ρ c 3).trans ((Pass1.final_rows (V1 m ρ) c).trans (in1_x0 m ρ c))

theorem in2_t1 : (V2 m ρ c main_v6_2 : Feat)
    = t1 (m ((c : Thread nD τ).loc main_arg0)) (feat0 (m ((c : Thread nD τ).loc main_arg1))) :=
  (W2_arr m ρ c 4).trans ((Pass1.final_prod (V1 m ρ) c).trans (by rw [in1_L m ρ c, in1_x0 m ρ c]; rfl))

theorem in2_w : (V2 m ρ c main_v4 : Wt) = wperm (m ((c : Thread nD τ).loc main_arg2)) :=
  (W2_of_ne m ρ c main_v4 (by decide)).trans (in1_w m ρ c)

theorem in2_b : (V2 m ρ c main_v5 : BiasRow) = biasRow (m ((c : Thread nD τ).loc main_arg3)) :=
  (W2_of_ne m ρ c main_v5 (by decide)).trans (in1_b m ρ c)

/-! ## Entering the third pass: what the second pass left -/

theorem in3_L : (V3 m ρ c main_v6_0 : LapMat) = m ((c : Thread nD τ).loc main_arg0) :=
  (W3_arr m ρ c 0).trans ((((dat1 (V2 m ρ) c).arrAt_in 0 rfl _).trans (A_eq1 (V2 m ρ) c 0)).trans (in2_L m ρ c))

theorem in3_t1 : (V3 m ρ c main_v6_2 : Feat)
    = t1 (m ((c : Thread nD τ).loc main_arg0)) (feat0 (m ((c : Thread nD τ).loc main_arg1))) :=
  (W3_arr m ρ c 1).trans ((((dat1 (V2 m ρ) c).arrAt_in 1 rfl _).trans (A_eq1 (V2 m ρ) c 1)).trans (in2_t1 m ρ c))

theorem in3_x0 : (V3 m ρ c main_v6_1 : Feat) = feat0 (m ((c : Thread nD τ).loc main_arg1)) :=
  (W3_arr m ρ c 2).trans ((((dat1 (V2 m ρ) c).arrAt_in 2 rfl _).trans (A_eq1 (V2 m ρ) c 2)).trans (in2_x0 m ρ c))

theorem in3_t2 : (V3 m ρ c main_v7 : Feat)
    = t2 (m ((c : Thread nD τ).loc main_arg0)) (feat0 (m ((c : Thread nD τ).loc main_arg1))) :=
  (W3_arr m ρ c 3).trans ((Pass2.final_step (V2 m ρ) c).trans (by rw [in2_L m ρ c, in2_t1 m ρ c, in2_x0 m ρ c]; rfl))

theorem in3_w : (V3 m ρ c main_v4 : Wt) = wperm (m ((c : Thread nD τ).loc main_arg2)) :=
  (W3_of_ne m ρ c main_v4 (by decide)).trans (in2_w m ρ c)

theorem in3_b : (V3 m ρ c main_v5 : BiasRow) = biasRow (m ((c : Thread nD τ).loc main_arg3)) :=
  (W3_of_ne m ρ c main_v5 (by decide)).trans (in2_b m ρ c)

/-! ## After the third pass, and the closing reshape -/

/-- The third pass' output array: the four products and the bias row, of the arguments. -/
theorem out3 : (V4 m ρ c main_v8 : Feat)
    = combine (feat0 (m ((c : Thread nD τ).loc main_arg1)))
        (t1 (m ((c : Thread nD τ).loc main_arg0)) (feat0 (m ((c : Thread nD τ).loc main_arg1))))
        (t2 (m ((c : Thread nD τ).loc main_arg0)) (feat0 (m ((c : Thread nD τ).loc main_arg1))))
        (t3 (m ((c : Thread nD τ).loc main_arg0)) (feat0 (m ((c : Thread nD τ).loc main_arg1))))
        (wperm (m ((c : Thread nD τ).loc main_arg2))) (biasRow (m ((c : Thread nD τ).loc main_arg3))) :=
  (W4_arr m ρ c 6).trans ((Pass3.out_final (V3 m ρ) c).trans (by
    rw [in3_L m ρ c, in3_t1 m ρ c, in3_x0 m ρ c, in3_t2 m ρ c, in3_w m ρ c, in3_b m ρ c]; rfl))

/-- The result buffer ends holding the convolution of the arguments. -/
theorem result_eq : W5 m ρ c (Proc.devRef .tc main_v9)
    = result (m ((c : Thread nD τ).loc main_arg0)) (m ((c : Thread nD τ).loc main_arg1))
        (m ((c : Thread nD τ).loc main_arg2)) (m ((c : Thread nD τ).loc main_arg3)) := by
  show StableHlo.after hostOps3 (W4 m ρ c) (Proc.devRef .tc main_v9) = _
  after_results
  refine (congrArg (fun g => shapeCast S1x10000x128 g _) (out3 m ρ c)).trans ?_
  exact HostLayout.out_eq _ _

/-- The run: the result buffer at the convolution of the arguments, the arguments unchanged. -/
theorem run : θ_run defs (onTc (τ := τ) (main (F := Ideal))) ⟨m, fun _ => 0, ρ⟩ (fun r => ∀ c : Dev nD,
      r.2.mem ((c.tc : Thread nD τ).loc main_v9)
        = result (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (RunHeld.run_result m ρ)

end Cert.KernelIdeal.KValue

end
-- ==== Proof.Regroup.lean ====
/-
  A sum of 512 terms regrouped as four sums of 128 terms.

  Position j among 512 is written uniquely as j = 4 f + k with f below 128 and k below 4. Addition in a commutative
  monoid may be re-indexed along this bijection and the inner sum over the four values of k written out, so
    sum over j of g j  =  ((P 0 + P 1) + P 2) + P 3,   P k = sum over f of g (4 f + k).
  Only commutativity and associativity of addition are used: no finiteness of the terms and no distributivity, so the
  law holds over the extended reals.
-/
import Mathlib.Algebra.BigOperators.Fin
import Mathlib.Data.Fintype.BigOperators

namespace Cert.Regroup

open scoped BigOperators

/-- Position 4 f + k among 512. -/
def row (f : Fin 128) (k : Fin 4) : Fin 512 :=
  ⟨4 * f.val + k.val, by have := f.isLt; have := k.isLt; omega⟩

theorem row_val (f : Fin 128) (k : Fin 4) : (row f k).val = 4 * f.val + k.val := rfl

/-- The bijection (f, k) ↦ 4 f + k between the 128 × 4 pairs and the 512 positions. -/
def pairEquiv : Fin 128 × Fin 4 ≃ Fin 512 where
  toFun p := row p.1 p.2
  invFun j := (⟨j.val / 4, by have := j.isLt; omega⟩, ⟨j.val % 4, Nat.mod_lt _ (by decide)⟩)
  left_inv := by
    rintro ⟨⟨f, hf⟩, ⟨k, hk⟩⟩
    refine Prod.ext (Fin.ext ?_) (Fin.ext ?_)
    · show (4 * f + k) / 4 = f
      omega
    · show (4 * f + k) % 4 = k
      omega
  right_inv := by
    rintro ⟨j, hj⟩
    refine Fin.ext ?_
    show 4 * (j / 4) + j % 4 = j
    omega

/-- The regrouping law: the sum over 512 positions is the four sums over f of the terms at 4 f + k, k = 0, 1, 2, 3,
    added left to right. -/
theorem sum_regroup {M : Type*} [AddCommMonoid M] (g : Fin 512 → M) :
    ∑ j : Fin 512, g j
      = (((∑ f : Fin 128, g (row f 0)) + ∑ f : Fin 128, g (row f 1)) + ∑ f : Fin 128, g (row f 2))
        + ∑ f : Fin 128, g (row f 3) := by
  rw [← Equiv.sum_comp pairEquiv g, Fintype.sum_prod_type]
  simp only [Fin.sum_univ_four, Finset.sum_add_distrib]
  rfl

end Cert.Regroup
-- ==== Proof.RefValue.lean ====
/-
  The reference program computes the Chebyshev graph convolution of order four.

  The reference forms the feature matrix x0 of the one batch, the three products of the recurrence
    t1 = L x0,   t2 = 2 (L t1) - x0,   t3 = 2 (L t2) - t1,
  stacks x0, t1, t2, t3 on a new leading axis and re-lays the stack as a matrix X of 512 columns with
    X (r, 4 f + k) = t_k (r, f),
  multiplies X by the weight read as one matrix W of 512 rows, and adds the bias. So its entry (r, o) is
    sum over j < 512 of X (r, j) W (j, o)  +  bias o.
  The specification writes the same number as four sums of 128 terms, t_k against rows 128 k .. 128 k + 127 of the
  permuted weight whose row 128 k + f is row 4 f + k of W. The two agree by the regrouping law: the sum over the 512
  columns j = 4 f + k is the four sums over f, k = 0, 1, 2, 3, added left to right.

  Each stage is first identified, as a function, with the specification's name for it, so that a later stage is
  opened over a short name and never over the full earlier term.
-/
import proofs.«146052_g1580547967739_cont_week2b_856_7_alg».proof.Proof.Gen.ReferenceIdeal.Read
import proofs.«146052_g1580547967739_cont_week2b_856_7_alg».proof.Proof.Spec
import proofs.«146052_g1580547967739_cont_week2b_856_7_alg».proof.Proof.Regroup

noncomputable section

namespace Cert.ReferenceIdeal.RefValue

open Cert.ReferenceIdeal Cert.ReferenceIdeal.Read Idealize.ShloMosaic Idealize.ShloMosaic.ValueIdx Cert.Cheb

/-! ## The feature matrix and the recurrence -/

/-- Entry (p, q) of the re-laid input is entry (0, p, q) of the input. -/
theorem idx_v0_v1 (p : Fin 10000) (q : Fin 128) :
    idx_main_v0 (idx_main_v1 (ix2 p q)) = ix3 (0 : Fin 1) p q :=
  funext fun a => Fin.ext (by
    match a with
    | ⟨0, _⟩ => rfl
    | ⟨1, _⟩ => show (p.val * 128 + q.val) / 128 = p.val; omega
    | ⟨2, _⟩ => show (p.val * 128 + q.val) / 1 % 128 = q.val; omega)

/-- A product with the Laplacian reads row p of L … -/
theorem lidx_lap (p : Fin 10000) (q : Fin 128) (k : Fin 10000) : lidx_main_v2 (ix2 p q) k = ix2 p k :=
  funext fun a => Fin.ext (by match a with | ⟨0, _⟩ => rfl | ⟨1, _⟩ => rfl)
/-- … against column q of the other factor. -/
theorem ridx_lap (p : Fin 10000) (q : Fin 128) (k : Fin 10000) : ridx_main_v2 (ix2 p q) k = ix2 k q :=
  funext fun a => Fin.ext (by match a with | ⟨0, _⟩ => rfl | ⟨1, _⟩ => rfl)

/-- The re-laid input is the feature matrix of the one batch. -/
theorem v1_eq (inp : (⟨S1x10000x128, .f32⟩ : BufTy).Contents (Elt Ideal)) :
    val_main_v1 (F := Ideal) inp = feat0 inp := by
  funext i
  obtain ⟨p, q, rfl⟩ : ∃ (p : Fin 10000) (q : Fin 128), i = ix2 p q := ⟨i 0, i 1, eq_ix2 i⟩
  rw [val_main_v1_apply, val_main_v0_apply, idx_v0_v1, feat0_apply]

/-- The first product is t1 = L x0. -/
theorem v2_eq (L : (⟨S10000x10000, .f32⟩ : BufTy).Contents (Elt Ideal))
    (inp : (⟨S1x10000x128, .f32⟩ : BufTy).Contents (Elt Ideal)) :
    val_main_v2 (F := Ideal) L inp = t1 L (feat0 inp) := by
  funext i
  obtain ⟨p, q, rfl⟩ : ∃ (p : Fin 10000) (q : Fin 128), i = ix2 p q := ⟨i 0, i 1, eq_ix2 i⟩
  rw [val_main_v2_apply, v1_eq]
  unfold t1
  rw [lap_apply]
  refine Finset.sum_congr rfl fun k _ => ?_
  rw [lidx_lap, ridx_lap]

/-- The second product is L t1. -/
theorem v3_eq (L : (⟨S10000x10000, .f32⟩ : BufTy).Contents (Elt Ideal))
    (inp : (⟨S1x10000x128, .f32⟩ : BufTy).Contents (Elt Ideal)) :
    val_main_v3 (F := Ideal) L inp = lap L (t1 L (feat0 inp)) := by
  funext i
  obtain ⟨p, q, rfl⟩ : ∃ (p : Fin 10000) (q : Fin 128), i = ix2 p q := ⟨i 0, i 1, eq_ix2 i⟩
  rw [val_main_v3_apply, v2_eq, lap_apply]
  refine Finset.sum_congr rfl fun k _ => ?_
  rw [show lidx_main_v3 (ix2 p q) k = ix2 p k from lidx_lap p q k,
    show ridx_main_v3 (ix2 p q) k = ix2 k q from ridx_lap p q k]

/-- Twice the second product less x0 is t2. -/
theorem v6_eq (L : (⟨S10000x10000, .f32⟩ : BufTy).Contents (Elt Ideal))
    (inp : (⟨S1x10000x128, .f32⟩ : BufTy).Contents (Elt Ideal)) :
    val_main_v6 (F := Ideal) L inp = t2 L (feat0 inp) := by
  funext i
  obtain ⟨p, q, rfl⟩ : ∃ (p : Fin 10000) (q : Fin 128), i = ix2 p q := ⟨i 0, i 1, eq_ix2 i⟩
  rw [val_main_v6_apply, val_main_v5_apply, val_main_v4_apply, val_main_cst_apply, v3_eq, v1_eq]
  unfold t2
  rw [next_apply]
  rfl

/-- The third product is L t2. -/
theorem v7_eq (L : (⟨S10000x10000, .f32⟩ : BufTy).Contents (Elt Ideal))
    (inp : (⟨S1x10000x128, .f32⟩ : BufTy).Contents (Elt Ideal)) :
    val_main_v7 (F := Ideal) L inp = lap L (t2 L (feat0 inp)) := by
  funext i
  obtain ⟨p, q, rfl⟩ : ∃ (p : Fin 10000) (q : Fin 128), i = ix2 p q := ⟨i 0, i 1, eq_ix2 i⟩
  rw [val_main_v7_apply, v6_eq, lap_apply]
  refine Finset.sum_congr rfl fun k _ => ?_
  rw [show lidx_main_v7 (ix2 p q) k = ix2 p k from lidx_lap p q k,
    show ridx_main_v7 (ix2 p q) k = ix2 k q from ridx_lap p q k]

/-- Twice the third product less t1 is t3. -/
theorem v10_eq (L : (⟨S10000x10000, .f32⟩ : BufTy).Contents (Elt Ideal))
    (inp : (⟨S1x10000x128, .f32⟩ : BufTy).Contents (Elt Ideal)) :
    val_main_v10 (F := Ideal) L inp = t3 L (feat0 inp) := by
  funext i
  obtain ⟨p, q, rfl⟩ : ∃ (p : Fin 10000) (q : Fin 128), i = ix2 p q := ⟨i 0, i 1, eq_ix2 i⟩
  rw [val_main_v10_apply, val_main_v9_apply, val_main_v8_apply, val_main_cst_0_apply, v7_eq, v2_eq]
  unfold t3
  rw [next_apply]
  rfl

/-! ## The weight as one matrix of 512 rows -/

/-- Row j = 128 a + b of the flat weight is entry (a, b) of the weight as given. -/
theorem v19_eq (wt : (⟨S4x128x128, .f32⟩ : BufTy).Contents (Elt Ideal)) :
    val_main_v19 (F := Ideal) wt = wflat wt := by
  funext i
  obtain ⟨j, o, rfl⟩ : ∃ (j : Fin 512) (o : Fin 128), i = ix2 j o := ⟨i 0, i 1, eq_ix2 i⟩
  rw [val_main_v19_apply]
  have hj : j.val < 512 := j.isLt
  have ho : o.val < 128 := o.isLt
  exact congrArg wt (funext fun a => Fin.ext (by
    match a with
    | ⟨0, _⟩ => show (j.val * 128 + o.val) / 16384 = j.val / 128; omega
    | ⟨1, _⟩ => show (j.val * 128 + o.val) / 128 % 128 = j.val % 128; omega
    | ⟨2, _⟩ => show (j.val * 128 + o.val) % 128 = o.val; omega))

/-! ## The stack of the four feature matrices, re-laid as a matrix of 512 columns -/

section Stack
variable {α : Type}

/-- Slab 0 of a stack of four is the first piece. -/
theorem stack_apply0 (y0 y1 y2 y3 : S1x10000x128.Idx → α)
    (h : Shape.Concatenates (([⟨S1x10000x128, y0⟩, ⟨S1x10000x128, y1⟩, ⟨S1x10000x128, y2⟩, ⟨S1x10000x128, y3⟩] :
      List ((s : Shape) × (s.Idx → α))).map (·.1)) S4x10000x128 0)
    (r : Fin 10000) (f : Fin 128) :
    concatenate S4x10000x128 0 [⟨S1x10000x128, y0⟩, ⟨S1x10000x128, y1⟩, ⟨S1x10000x128, y2⟩, ⟨S1x10000x128, y3⟩] h
      (ix3 (0 : Fin 4) r f) = y0 (ix3 (0 : Fin 1) r f) :=
  concatenate_apply_piece 0 _ h (ix3 (0 : Fin 4) r f) 0 (by show (0 : Nat) < 4; decide) S1x10000x128 y0 rfl rfl 0 rfl
    (ix3 (0 : Fin 1) r f)
    (fun b hb => by match b with | ⟨0, _⟩ => exact absurd rfl hb | ⟨1, _⟩ => rfl | ⟨2, _⟩ => rfl) rfl

/-- Slab 1 is the second piece. -/
theorem stack_apply1 (y0 y1 y2 y3 : S1x10000x128.Idx → α)
    (h : Shape.Concatenates (([⟨S1x10000x128, y0⟩, ⟨S1x10000x128, y1⟩, ⟨S1x10000x128, y2⟩, ⟨S1x10000x128, y3⟩] :
      List ((s : Shape) × (s.Idx → α))).map (·.1)) S4x10000x128 0)
    (r : Fin 10000) (f : Fin 128) :
    concatenate S4x10000x128 0 [⟨S1x10000x128, y0⟩, ⟨S1x10000x128, y1⟩, ⟨S1x10000x128, y2⟩, ⟨S1x10000x128, y3⟩] h
      (ix3 (1 : Fin 4) r f) = y1 (ix3 (0 : Fin 1) r f) :=
  concatenate_apply_piece 0 _ h (ix3 (1 : Fin 4) r f) 1 (by show (1 : Nat) < 4; decide) S1x10000x128 y1 rfl rfl 1 rfl
    (ix3 (0 : Fin 1) r f)
    (fun b hb => by match b with | ⟨0, _⟩ => exact absurd rfl hb | ⟨1, _⟩ => rfl | ⟨2, _⟩ => rfl) rfl

/-- Slab 2 is the third piece. -/
theorem stack_apply2 (y0 y1 y2 y3 : S1x10000x128.Idx → α)
    (h : Shape.Concatenates (([⟨S1x10000x128, y0⟩, ⟨S1x10000x128, y1⟩, ⟨S1x10000x128, y2⟩, ⟨S1x10000x128, y3⟩] :
      List ((s : Shape) × (s.Idx → α))).map (·.1)) S4x10000x128 0)
    (r : Fin 10000) (f : Fin 128) :
    concatenate S4x10000x128 0 [⟨S1x10000x128, y0⟩, ⟨S1x10000x128, y1⟩, ⟨S1x10000x128, y2⟩, ⟨S1x10000x128, y3⟩] h
      (ix3 (2 : Fin 4) r f) = y2 (ix3 (0 : Fin 1) r f) :=
  concatenate_apply_piece 0 _ h (ix3 (2 : Fin 4) r f) 2 (by show (2 : Nat) < 4; decide) S1x10000x128 y2 rfl rfl 2 rfl
    (ix3 (0 : Fin 1) r f)
    (fun b hb => by match b with | ⟨0, _⟩ => exact absurd rfl hb | ⟨1, _⟩ => rfl | ⟨2, _⟩ => rfl) rfl

/-- Slab 3 is the fourth piece. -/
theorem stack_apply3 (y0 y1 y2 y3 : S1x10000x128.Idx → α)
    (h : Shape.Concatenates (([⟨S1x10000x128, y0⟩, ⟨S1x10000x128, y1⟩, ⟨S1x10000x128, y2⟩, ⟨S1x10000x128, y3⟩] :
      List ((s : Shape) × (s.Idx → α))).map (·.1)) S4x10000x128 0)
    (r : Fin 10000) (f : Fin 128) :
    concatenate S4x10000x128 0 [⟨S1x10000x128, y0⟩, ⟨S1x10000x128, y1⟩, ⟨S1x10000x128, y2⟩, ⟨S1x10000x128, y3⟩] h
      (ix3 (3 : Fin 4) r f) = y3 (ix3 (0 : Fin 1) r f) :=
  concatenate_apply_piece 0 _ h (ix3 (3 : Fin 4) r f) 3 (by show (3 : Nat) < 4; decide) S1x10000x128 y3 rfl rfl 3 rfl
    (ix3 (0 : Fin 1) r f)
    (fun b hb => by match b with | ⟨0, _⟩ => exact absurd rfl hb | ⟨1, _⟩ => rfl | ⟨2, _⟩ => rfl) rfl

end Stack

/-- Column 4 f + k of the matrix of 512 columns sits at (0, r, f, k) before the last re-laying … -/
theorem idx_v18 (r : Fin 10000) (f : Fin 128) (k : Fin 4) :
    idx_main_v18 (ix2 r (Cert.Regroup.row f k)) = ix4 (0 : Fin 1) r f k :=
  funext fun a => Fin.ext (by
    have hr : r.val < 10000 := r.isLt
    have hf : f.val < 128 := f.isLt
    have hk : k.val < 4 := k.isLt
    match a with
    | ⟨0, _⟩ => rfl
    | ⟨1, _⟩ => show (r.val * 512 + (4 * f.val + k.val)) / 512 % 10000 = r.val; omega
    | ⟨2, _⟩ => show (r.val * 512 + (4 * f.val + k.val)) / 4 % 128 = f.val; omega
    | ⟨3, _⟩ => show (r.val * 512 + (4 * f.val + k.val)) % 4 = k.val; omega)

/-- … which the exchange of the first and last axes takes to (k, r, f, 0) … -/
theorem idx_v17 (a : Fin 1) (r : Fin 10000) (f : Fin 128) (k : Fin 4) :
    idx_main_v17 (ix4 a r f k) = ix4 k r f a :=
  funext fun d => Fin.ext (by match d with | ⟨0, _⟩ => rfl | ⟨1, _⟩ => rfl | ⟨2, _⟩ => rfl | ⟨3, _⟩ => rfl)

/-- … and dropping the last unit axis to (k, r, f) of the stack. -/
theorem idx_v16 (r : Fin 10000) (f : Fin 128) (k : Fin 4) :
    idx_main_v16 (ix4 k r f (0 : Fin 1)) = ix3 k r f :=
  funext fun a => Fin.ext (by
    have hr : r.val < 10000 := r.isLt
    have hf : f.val < 128 := f.isLt
    have hk : k.val < 4 := k.isLt
    match a with
    | ⟨0, _⟩ => show (((k.val * 10000 + r.val) * 128 + f.val) * 1 + 0) / 1280000 = k.val; omega
    | ⟨1, _⟩ => show (((k.val * 10000 + r.val) * 128 + f.val) * 1 + 0) / 128 % 10000 = r.val; omega
    | ⟨2, _⟩ => show (((k.val * 10000 + r.val) * 128 + f.val) * 1 + 0) % 128 = f.val; omega)

/-- Column 4 f + k of the matrix of 512 columns is slab k of the stack at (r, f). -/
theorem v18_col (L : (⟨S10000x10000, .f32⟩ : BufTy).Contents (Elt Ideal))
    (inp : (⟨S1x10000x128, .f32⟩ : BufTy).Contents (Elt Ideal)) (r : Fin 10000) (f : Fin 128) (k : Fin 4) :
    val_main_v18 (F := Ideal) L inp (ix2 r (Cert.Regroup.row f k)) = val_main_v15 (F := Ideal) L inp (ix3 k r f) := by
  rw [val_main_v18_apply, val_main_v17_apply, val_main_v16_apply, idx_v18, idx_v17, idx_v16]

/-- A slab of the stack at (r, f) reads its feature matrix at (r, f). -/
theorem idx_slab (a : Fin 1) (r : Fin 10000) (f : Fin 128) : idx_main_v11 (ix3 a r f) = ix2 r f :=
  funext fun d => Fin.ext (by match d with | ⟨0, _⟩ => rfl | ⟨1, _⟩ => rfl)

/-- Columns 4 f of the matrix of 512 columns hold x0 … -/
theorem col0 (L : (⟨S10000x10000, .f32⟩ : BufTy).Contents (Elt Ideal))
    (inp : (⟨S1x10000x128, .f32⟩ : BufTy).Contents (Elt Ideal)) (r : Fin 10000) (f : Fin 128) :
    val_main_v18 (F := Ideal) L inp (ix2 r (Cert.Regroup.row f 0)) = feat0 inp (ix2 r f) := by
  rw [v18_col]
  unfold val_main_v15
  rw [stack_apply0, val_main_v11_apply, v1_eq, idx_slab]

/-- … columns 4 f + 1 hold t1 … -/
theorem col1 (L : (⟨S10000x10000, .f32⟩ : BufTy).Contents (Elt Ideal))
    (inp : (⟨S1x10000x128, .f32⟩ : BufTy).Contents (Elt Ideal)) (r : Fin 10000) (f : Fin 128) :
    val_main_v18 (F := Ideal) L inp (ix2 r (Cert.Regroup.row f 1)) = t1 L (feat0 inp) (ix2 r f) := by
  rw [v18_col]
  unfold val_main_v15
  rw [stack_apply1, val_main_v12_apply, v2_eq, show idx_main_v12 (ix3 (0 : Fin 1) r f) = ix2 r f from idx_slab 0 r f]

/-- … columns 4 f + 2 hold t2 … -/
theorem col2 (L : (⟨S10000x10000, .f32⟩ : BufTy).Contents (Elt Ideal))
    (inp : (⟨S1x10000x128, .f32⟩ : BufTy).Contents (Elt Ideal)) (r : Fin 10000) (f : Fin 128) :
    val_main_v18 (F := Ideal) L inp (ix2 r (Cert.Regroup.row f 2)) = t2 L (feat0 inp) (ix2 r f) := by
  rw [v18_col]
  unfold val_main_v15
  rw [stack_apply2, val_main_v13_apply, v6_eq, show idx_main_v13 (ix3 (0 : Fin 1) r f) = ix2 r f from idx_slab 0 r f]

/-- … and columns 4 f + 3 hold t3. -/
theorem col3 (L : (⟨S10000x10000, .f32⟩ : BufTy).Contents (Elt Ideal))
    (inp : (⟨S1x10000x128, .f32⟩ : BufTy).Contents (Elt Ideal)) (r : Fin 10000) (f : Fin 128) :
    val_main_v18 (F := Ideal) L inp (ix2 r (Cert.Regroup.row f 3)) = t3 L (feat0 inp) (ix2 r f) := by
  rw [v18_col]
  unfold val_main_v15
  rw [stack_apply3, val_main_v14_apply, v10_eq, show idx_main_v14 (ix3 (0 : Fin 1) r f) = ix2 r f from idx_slab 0 r f]

/-! ## The product with the weight, regrouped -/

/-- Row 128 k + f of the permuted weight is row 4 f + k of the flat weight. -/
theorem wperm_row (wt : Wt3) (k : Fin 4) (f : Fin 128) (o : Fin 128) :
    wperm wt (ix2 (wrow k f) o) = wflat wt (ix2 (Cert.Regroup.row f k) o) := by
  have hf : f.val < 128 := f.isLt
  have hk : k.val < 4 := k.isLt
  have e : ∀ h, (⟨4 * ((128 * k.val + f.val) % 128) + (128 * k.val + f.val) / 128, h⟩ : Fin 512)
      = Cert.Regroup.row f k := fun h => Fin.ext (by
    show 4 * ((128 * k.val + f.val) % 128) + (128 * k.val + f.val) / 128 = 4 * f.val + k.val
    omega)
  exact congrArg (fun j : Fin 512 => wflat wt (ix2 j o)) (e _)

/-- The product with the flat weight reads row p of the matrix of 512 columns … -/
theorem lidx_w (p : Fin 10000) (q : Fin 128) (j : Fin 512) : lidx_main_v20 (ix2 p q) j = ix2 p j :=
  funext fun a => Fin.ext (by match a with | ⟨0, _⟩ => rfl | ⟨1, _⟩ => rfl)
/-- … against column q of the flat weight. -/
theorem ridx_w (p : Fin 10000) (q : Fin 128) (j : Fin 512) : ridx_main_v20 (ix2 p q) j = ix2 j q :=
  funext fun a => Fin.ext (by match a with | ⟨0, _⟩ => rfl | ⟨1, _⟩ => rfl)

/-- The sum over the 512 columns is the four sums of 128 terms of the specification: the regrouping law, then each
    column 4 f + k read as t_k at f and each row 4 f + k of the flat weight as row 128 k + f of the permuted one. -/
theorem v20_apply (L : (⟨S10000x10000, .f32⟩ : BufTy).Contents (Elt Ideal))
    (inp : (⟨S1x10000x128, .f32⟩ : BufTy).Contents (Elt Ideal))
    (wt : (⟨S4x128x128, .f32⟩ : BufTy).Contents (Elt Ideal)) (p : Fin 10000) (q : Fin 128) :
    val_main_v20 (F := Ideal) L inp wt (ix2 p q)
      = ((part (feat0 inp) (wperm wt) 0 (ix2 p q) + part (t1 L (feat0 inp)) (wperm wt) 1 (ix2 p q))
          + part (t2 L (feat0 inp)) (wperm wt) 2 (ix2 p q)) + part (t3 L (feat0 inp)) (wperm wt) 3 (ix2 p q) := by
  rw [val_main_v20_apply, v19_eq]
  have hsum : (∑ j : Fin 512, val_main_v18 (F := Ideal) L inp (lidx_main_v20 (ix2 p q) j) * wflat wt (ridx_main_v20 (ix2 p q) j))
      = ∑ j : Fin 512, val_main_v18 (F := Ideal) L inp (ix2 p j) * wflat wt (ix2 j q) :=
    Finset.sum_congr rfl fun j _ => by rw [lidx_w, ridx_w]
  rw [hsum, Cert.Regroup.sum_regroup (fun j : Fin 512 => val_main_v18 (F := Ideal) L inp (ix2 p j) * wflat wt (ix2 j q))]
  simp only [col0, col1, col2, col3, part_apply, wperm_row]

/-! ## The result -/

/-- Entry (0, p, q) of the result reads the product at (p, q) … -/
theorem idx_v21 (p : Fin 10000) (q : Fin 128) : idx_main_v21 (ix3 (0 : Fin 1) p q) = ix2 p q :=
  funext fun a => Fin.ext (by
    have hp : p.val < 10000 := p.isLt
    have hq : q.val < 128 := q.isLt
    match a with
    | ⟨0, _⟩ => show ((0 * 10000 + p.val) * 128 + q.val) / 128 = p.val; omega
    | ⟨1, _⟩ => show ((0 * 10000 + p.val) * 128 + q.val) % 128 = q.val; omega)

/-- … and the bias at q. -/
theorem idx_bias (p : Fin 10000) (q : Fin 128) :
    idx_main_v22 (idx_main_v23 (ix3 (0 : Fin 1) p q)) = ix1 q :=
  funext fun a => Fin.ext (by match a with | ⟨0, _⟩ => rfl)

/-- The reference's result, entry by entry. -/
theorem val_apply (L : (⟨S10000x10000, .f32⟩ : BufTy).Contents (Elt Ideal))
    (inp : (⟨S1x10000x128, .f32⟩ : BufTy).Contents (Elt Ideal))
    (wt : (⟨S4x128x128, .f32⟩ : BufTy).Contents (Elt Ideal)) (b : (⟨S128, .f32⟩ : BufTy).Contents (Elt Ideal))
    (p : Fin 10000) (q : Fin 128) :
    val_main_v24 (F := Ideal) L inp wt b (ix3 (0 : Fin 1) p q) = result L inp wt b (ix3 (0 : Fin 1) p q) := by
  rw [val_main_v24_apply, val_main_v21_apply, val_main_v23_apply, val_main_v22_apply, idx_v21, idx_bias, v20_apply,
    result_apply, combine_apply]
  rfl

/-- **The reference computes the convolution.** -/
theorem val_eq_result (L : (⟨S10000x10000, .f32⟩ : BufTy).Contents (Elt Ideal))
    (inp : (⟨S1x10000x128, .f32⟩ : BufTy).Contents (Elt Ideal))
    (wt : (⟨S4x128x128, .f32⟩ : BufTy).Contents (Elt Ideal)) (b : (⟨S128, .f32⟩ : BufTy).Contents (Elt Ideal)) :
    val_main_v24 (F := Ideal) L inp wt b = result L inp wt b := by
  funext i
  obtain ⟨a, p, q, rfl⟩ : ∃ (a : Fin 1) (p : Fin 10000) (q : Fin 128), i = ix3 a p q := ⟨i 0, i 1, i 2, eq_ix3 i⟩
  obtain rfl : a = 0 := Subsingleton.elim _ _
  exact val_apply L inp wt b p q

end Cert.ReferenceIdeal.RefValue

end
-- ==== Proof.lean ====
/-
  Chebyshev graph convolution of order four: with L the dense Laplacian and x0 the node features,
  t1 = L x0, t2 = 2 (L t1) - x0, t3 = 2 (L t2) - t1, and the result is the sum over k of t_k W_k plus the bias.

  The kernel runs three row-blocked passes over L: the first writes copies of L and x0 and the product t1, the second
  t2, and the third forms t3 and adds the four products t_k W_k, each a sum of 128 terms against 128 rows of a
  permuted weight, then the bias. The reference stacks the four t_k side by side into a matrix of 512 columns and
  multiplies once by the weight read as a matrix of 512 rows. Over the extended reals both end holding the same
  function of the arguments, entry by entry (Proof/Spec.lean states it): the kernel's side is read off its run pass
  by pass, the reference's side off its operations one at a time, and the one law that joins them is that a sum
  over 512 indices may be regrouped, along the bijection (f, k) to 4 f + k, into four sums over 128 indices.
  Addition of extended reals is commutative and associative, so no finiteness of the inputs is used.
  The ideal pass rewrote nothing, so the idealization claim is trivial; the three frames are the generated ones.
-/
import proofs.«146052_g1580547967739_cont_week2b_856_7_alg».proof.Defs
import proofs.«146052_g1580547967739_cont_week2b_856_7_alg».proof.Proof.Gen.Kernel
import proofs.«146052_g1580547967739_cont_week2b_856_7_alg».proof.Proof.Gen.Kernel.Frame
import proofs.«146052_g1580547967739_cont_week2b_856_7_alg».proof.Proof.Gen.KernelIdeal
import proofs.«146052_g1580547967739_cont_week2b_856_7_alg».proof.Proof.Gen.KernelIdeal.Frame
import proofs.«146052_g1580547967739_cont_week2b_856_7_alg».proof.Proof.Gen.ReferenceIdeal
import proofs.«146052_g1580547967739_cont_week2b_856_7_alg».proof.Proof.Gen.ReferenceIdeal.Run
import proofs.«146052_g1580547967739_cont_week2b_856_7_alg».proof.Proof.Gen.ReferenceIdeal.Read
import proofs.«146052_g1580547967739_cont_week2b_856_7_alg».proof.Proof.Gen.Pre_finite_inputs
import proofs.«146052_g1580547967739_cont_week2b_856_7_alg».proof.Proof.KValue
import proofs.«146052_g1580547967739_cont_week2b_856_7_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result buffer at the convolution of the arguments (Proof/Spec.lean's
    `result`): the kernel's run read pass by pass, the reference's run read one operation at a time, from
    memories that agree on the four arguments. -/
theorem algebraic : Cert.algebraic_KernelIdeal_ReferenceIdeal := by
  intro m ρ m' ρ' _ hagree
  refine ⟨fun c => Cert.Cheb.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.val_eq_result,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
